-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S3x128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S1x128x128 : Shape := ⟨3, ![1, 128, 128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 15
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S1x128x128, .f32⟩
  | .hbm, ⟨5, _⟩ => ⟨S128x128, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S400x128, .f32⟩
  | .local _ .vmem, ⟨13, _⟩ => ⟨S400x128, .f32⟩
  | .local _ .vmem, ⟨14, _⟩ => ⟨S400x128, .f32⟩
  | .local _ .vmem, ⟨15, _⟩ => ⟨S400x128, .f32⟩
  | .local _ .vmem, ⟨16, _⟩ => ⟨S128x128, .f32⟩
  | .local _ .vmem, ⟨17, _⟩ => ⟨S1x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8_0 : Ref sig .tc := ⟨.hbm, 12, rfl⟩
abbrev main_call0_v8_1 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  shapeCasts_S400x128_S400x128 : S400x128.ShapeCasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8_0) S400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v8_1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v8_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v8_1) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S10000 : Shape := ⟨1, ![10000]⟩
abbrev S10000x1 : Shape := ⟨2, ![10000, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S1x128x128, .f32⟩
  | .hbm, ⟨11, _⟩ => ⟨S128x128, .f32⟩
  | .hbm, ⟨12, _⟩ => ⟨S10000x128, .f32⟩
  | .hbm, ⟨13, _⟩ => ⟨S1x128x128, .f32⟩
  | .hbm, ⟨14, _⟩ => ⟨S128x128, .f32⟩
  | .hbm, ⟨15, _⟩ => ⟨S10000x128, .f32⟩
  | .hbm, ⟨16, _⟩ => ⟨S10000x128, .f32⟩
  | .hbm, ⟨17, _⟩ => ⟨S1x128x128, .f32⟩
  | .hbm, ⟨18, _⟩ => ⟨S128x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x1, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KRun.lean ====
/-
  The idealized kernel's run with its result array NAMED.

  The program is two launches in a row after a short stretch of host operations (the three weight
  matrices sliced out of their stack, the difference `w₀ − w₂`, the bias as a row). Every weakly fair
  execution ends, without a fault, with every unscoped buffer of a core holding what the fold through
  the three segments leaves there (`Gen.W3`): the host stretch's results, then the first launch's two
  output arrays, then the second launch's output array. The frame certificate reads only the four
  argument arrays off that final valuation; here the result array is read off it as well.
-/
import proofs.«162648_g1778116460694_cont_7to1_379_3_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the final
    valuation's contents and the four arguments end as launched. -/
theorem run_named : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.ChebSpec.lean ====
/-
  The mathematics of the certificate, with no program in sight.

  One Chebyshev graph convolution of order three followed by a row-wise log-softmax, on a graph of
  10000 nodes with 128 features: with `T₁ = g · x` (`g` the 10000 × 10000 graph operator, `x` the
  10000 × 128 features) and weights `w₀, w₁, w₂` (128 × 128 each) and a bias `b`,

    reference:   h = x·w₀ + T₁·w₁ + (2·(g·T₁) − x)·w₂ + b        (the recurrence T₂ = 2·g·T₁ − T₀, then the three products)
    kernel:      h = 2·(g·(T₁·w₂)) + T₁·w₁ + x·(w₀ − w₂) + b      (the same, regrouped so that g is read twice)

  and then, with `M` the maximum of row `r` of `h`,

    reference:   (h − M) − log Σ exp (h − M)
    kernel:      h − (log Σ exp (h − M) + M).

  Everything is stated on the extended reals, element by element, as sums over `Fin` of the literal
  extents; the two constants (two, and minus infinity as the maximum's starting value) stay the bit
  patterns both programs spell.  `ChebAlgebra` proves that the two results agree wherever the four
  arrays hold real numbers.
-/
import Idealize.ShloMosaic.PureOps.Ideal
import Idealize.ShloMosaic.Lib.ValueIdx

noncomputable section

namespace Cert.Cheb

open Idealize.ShloMosaic Idealize.ShloMosaic.ValueIdx

/-- The shapes of the four arguments: features, graph operator, the three weight matrices, bias. -/
abbrev SX : Shape := ⟨2, ![10000, 128]⟩
abbrev SG : Shape := ⟨2, ![10000, 10000]⟩
abbrev SW : Shape := ⟨3, ![3, 128, 128]⟩
abbrev SB : Shape := ⟨1, ![128]⟩

/-- The factor 2 of the Chebyshev recurrence, as both programs spell it. -/
abbrev two : EReal := Ideal.ofBits .f32 0x40000000#32
/-- Minus infinity, the starting value of a row maximum. -/
abbrev ninf : EReal := Ideal.ofBits .f32 0xFF800000#32
/-- Zero, the starting value of the reference's row sum. -/
abbrev zero : EReal := Ideal.ofBits .f32 0x00000000#32

variable (x : SX.Idx → EReal) (g : SG.Idx → EReal) (w : SW.Idx → EReal) (b : SB.Idx → EReal)

/-- The first Chebyshev term `T₁ = g · x`. -/
def t1 (r : Fin 10000) (j : Fin 128) : EReal := ∑ k : Fin 10000, g (ix2 r k) * x (ix2 k j)

/-- `T₁ · w₂` and `T₁ · w₁`: what the kernel's first pass leaves. -/
def tw2 (r : Fin 10000) (c : Fin 128) : EReal := ∑ j : Fin 128, t1 x g r j * w (ix3 2 j c)
def tw1 (r : Fin 10000) (c : Fin 128) : EReal := ∑ j : Fin 128, t1 x g r j * w (ix3 1 j c)

/-- The kernel's pre-softmax value `2·(g·(T₁·w₂)) + T₁·w₁ + x·(w₀ − w₂) + b`, in its order of operations. -/
def preK (r : Fin 10000) (c : Fin 128) : EReal :=
  ((two * (∑ k : Fin 10000, g (ix2 r k) * tw2 x g w k c) + tw1 x g w r c)
    + ∑ j : Fin 128, x (ix2 r j) * (w (ix3 0 j c) - w (ix3 2 j c))) + b (ix1 c)

/-- The reference's pre-softmax value `x·w₀ + T₁·w₁ + (2·(g·T₁) − x)·w₂ + b`, in its order of operations. -/
def preR (r : Fin 10000) (c : Fin 128) : EReal :=
  ((∑ j : Fin 128, x (ix2 r j) * w (ix3 0 j c) + ∑ j : Fin 128, t1 x g r j * w (ix3 1 j c))
    + ∑ j : Fin 128, (two * (∑ k : Fin 10000, g (ix2 r k) * t1 x g k j) - x (ix2 r j)) * w (ix3 2 j c)) + b (ix1 c)

/-- The maximum of a row of 128 values, started from minus infinity. -/
def rowMax (p : Fin 128 → EReal) : EReal := (Finset.univ : Finset (Fin 128)).fold max ninf p

/-- The kernel's log-softmax of a row: `p − (log Σ exp (p − M) + M)`. -/
def lsmK (p : Fin 128 → EReal) (c : Fin 128) : EReal :=
  p c - (Ideal.log (∑ c' : Fin 128, Ideal.exp (p c' - rowMax p)) + rowMax p)

/-- The reference's log-softmax of a row: `(p − M) − log (0 + Σ exp (p − M))`, its maximum once more
    compared with minus infinity. -/
def lsmR (p : Fin 128 → EReal) (c : Fin 128) : EReal :=
  (p c - max ninf (rowMax p)) - Ideal.log (zero + ∑ c' : Fin 128, Ideal.exp (p c' - max ninf (rowMax p)))

/-- The kernel's result and the reference's result at row `r`, column `c`. -/
def outK (r : Fin 10000) (c : Fin 128) : EReal := lsmK (preK x g w b r) c
def outR (r : Fin 10000) (c : Fin 128) : EReal := lsmR (preR x g w b r) c

end Cert.Cheb

end
-- ==== Proof.KPay.lean ====
/-
  The values the two kernel bodies store, read at an index.

  First pass (one block of 400 rows of the graph operator against the whole feature matrix): the block of
  `T₁ = g · x`, then its products with `w₂` and with `w₁`. Second pass: twice the block of `g · u`, plus the
  block of `v`, plus the block of `x` times `w₀ − w₂`, plus the bias row; then the row-wise log-softmax
  `p − (log Σ exp (p − M) + M)` with `M` the row's maximum. A change of float format is the identity on the
  extended reals, a product into a zero accumulator is the plain sum of products, and a reduction along
  the lanes is a sum (or a maximum) over the 128 columns.
-/
import proofs.«162648_g1778116460694_cont_7to1_379_3_alg».proof.Proof.Gen.KernelIdeal.Skeleton
import proofs.«162648_g1778116460694_cont_7to1_379_3_alg».proof.Proof.ChebSpec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## The two matrix products at an index -/

theorem mmA_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mmA_l1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem mmA_r0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem mmA_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A 400 × 10000 by 10000 × 128 product into a zero accumulator, at row `p` and column `q`: the sum over the
    contracted axis of the products of the row's and the column's entries. -/
theorem mmA_apply {φ₁ φ₂ : FTy} (l : FVec Ideal S400x10000 φ₁) (r : FVec Ideal S10000x128 φ₂) (p : Fin 400) (q : Fin 128) :
    FloatOps.matmul dot_S400x10000_S10000x128_S400x128_1_0_0_1_n_n none l r (constant S400x128 .f32 0x00000000#32) (ix2 p q)
      = ∑ k : Fin 10000, l (ix2 p k) * r (ix2 k q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact mmA_l0 _ _
    | ⟨1, _⟩ => exact (mmA_l1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (mmA_r0 _ _).trans hk
    | ⟨1, _⟩ => exact mmA_r1 _ _)
  rw [el, er]

theorem mmB_l0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mmB_l1 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
theorem mmB_r0 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
theorem mmB_r1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A 400 × 128 by 128 × 128 product into a zero accumulator, at row `p` and column `q`: the sum over the
    contracted axis of the products of the row's and the column's entries. -/
theorem mmB_apply {φ₁ φ₂ : FTy} (l : FVec Ideal S400x128 φ₁) (r : FVec Ideal S128x128 φ₂) (p : Fin 400) (q : Fin 128) :
    FloatOps.matmul dot_S400x128_S128x128_S400x128_1_0_0_1_n_n none l r (constant S400x128 .f32 0x00000000#32) (ix2 p q)
      = ∑ k : Fin 128, l (ix2 p k) * r (ix2 k q) := by
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact mmB_l0 _ _
    | ⟨1, _⟩ => exact (mmB_l1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (mmB_r0 _ _).trans hk
    | ⟨1, _⟩ => exact mmB_r1 _ _)
  rw [el, er]

/-! ## The first pass -/

/-- The block of `T₁`: row `p` of the graph operator's block against column `j` of the features. -/
theorem pay1_apply (v0 : Vec Ideal S400x10000 .f32) (v2 : Vec Ideal S10000x128 .f32) (p : Fin 400) (j : Fin 128) :
    k0_pay1 v0 v2 (ix2 p j) = ∑ k : Fin 10000, v0 (ix2 p k) * v2 (ix2 k j) := by
  unfold k0_pay1
  exact mmA_apply _ _ p j

/-- What the first pass stores for `u`: the block of `T₁` times the weight matrix it is handed. -/
theorem pay2_apply (v0 : Vec Ideal S400x10000 .f32) (v2 : Vec Ideal S10000x128 .f32) (v5 : Vec Ideal S128x128 .f32)
    (p : Fin 400) (q : Fin 128) :
    k0_pay2 v0 v2 v5 (ix2 p q) = ∑ j : Fin 128, (∑ k : Fin 10000, v0 (ix2 p k) * v2 (ix2 k j)) * v5 (ix2 j q) := by
  unfold k0_pay2
  refine (mmB_apply _ _ p q).trans (Finset.sum_congr rfl fun j _ => ?_)
  rw [pay1_apply, shapeCast_self]

/-- What the first pass stores for `v`: the same with the other weight matrix. -/
theorem pay3_apply (v0 : Vec Ideal S400x10000 .f32) (v2 : Vec Ideal S10000x128 .f32) (v9 : Vec Ideal S128x128 .f32)
    (p : Fin 400) (q : Fin 128) :
    k0_pay3 v0 v2 v9 (ix2 p q) = ∑ j : Fin 128, (∑ k : Fin 10000, v0 (ix2 p k) * v2 (ix2 k j)) * v9 (ix2 j q) := by
  unfold k0_pay3
  refine (mmB_apply _ _ p q).trans (Finset.sum_congr rfl fun j _ => ?_)
  rw [pay1_apply, shapeCast_self]

/-! ## The second pass -/

/-- Reducing a 400 × 128 block along its lanes: the reduced index `p` with column `k` put back is `(p, k)`. -/
theorem lift_row (h : S400x128.Reduces [1] S400) (p : Fin 400) (k : Fin (S400x128.size 1)) :
    h.lift (ix1 p) k = ix2 p (⟨k.val, k.isLt⟩ : Fin 128) := by
  funext c; apply Fin.ext
  fin_cases c <;> rfl

/-- The maximum along the lanes from minus infinity, at row `p`: the maximum of the row's 128 entries. -/
theorem rowmax_apply (P : FVec Ideal S400x128 .f32) (p : Fin 400) :
    multiReduction .maximumf [1] S400 P 0xFF800000#32 reduces_S400x128_S400 (.inl rfl) rfl (ix1 p)
      = Cheb.rowMax (fun q : Fin 128 => P (ix2 p q)) := by
  refine (Ideal.multiReduction_maximumf_single P 0xFF800000#32 reduces_S400x128_S400 (.inl rfl) rfl (ix1 p)).trans ?_
  have hf : (P ∘ reduces_S400x128_S400.lift (ix1 p)) = fun k : Fin 128 => P (ix2 p k) :=
    funext fun k => congrArg P (lift_row reduces_S400x128_S400 p k)
  exact congrArg (fun f => Finset.fold max (Ideal.ofBits .f32 0xFF800000#32) f (Finset.univ : Finset (Fin 128))) hf

/-- The sum along the lanes, at row `p`: the sum of the row's 128 entries. -/
theorem rowsum_apply (E : FVec Ideal S400x128 .f32) (p : Fin 400) :
    multiReduction .add [1] S400 E 0x00000000#32 reduces_S400x128_S400 (.inl rfl) rfl (ix1 p)
      = ∑ k : Fin 128, E (ix2 p k) := by
  refine (Ideal.multiReduction_add_single E 0x00000000#32 reduces_S400x128_S400 (.inl rfl) rfl (ix1 p)).trans ?_
  exact Finset.sum_congr rfl fun k _ => congrArg E (lift_row reduces_S400x128_S400 p k)

/-- A vector of 400 entries cast to one column, read at `(p, 0)`, is entry `p`. -/
theorem col_apply (z : FVec Ideal S400 .f32) (p : Fin 400) (o : Fin 1) :
    shapeCast S400x1 z shapeCasts_S400_S400x1 (ix2 p o) = z (ix1 p) := by
  refine shapeCast_apply z shapeCasts_S400_S400x1 (ix2 p o) (ix1 p) ?_
  rw [Shape.rowMajor_val_one, Shape.rowMajor_val_two]
  show p.val = p.val * 1 + o.val
  omega

/-- A column broadcast along the lanes, read at `(p, q)`, is the column's entry `p`. -/
theorem bcol_apply (z : FVec Ideal S400x1 .f32) (p : Fin 400) (q : Fin 128) :
    broadcastTo S400x128 z broadcasts_S400x1_S400x128 (ix2 p q) = z (ix2 p (0 : Fin 1)) := by
  refine broadcastTo_apply z broadcasts_S400x1_S400x128 (ix2 p q) (ix2 p (0 : Fin 1)) fun a => ?_
  match a with
  | ⟨0, _⟩ => show p.val = if (400 : Nat) = 1 then 0 else p.val; rw [if_neg (by decide)]
  | ⟨1, _⟩ => show 0 = if (1 : Nat) = 1 then 0 else q.val; rw [if_pos rfl]

/-- A row broadcast down the sublanes, read at `(p, q)`, is the row's entry `q`. -/
theorem brow_apply (z : FVec Ideal S1x128 .f32) (p : Fin 400) (q : Fin 128) :
    broadcastTo S400x128 z broadcasts_S1x128_S400x128 (ix2 p q) = z (ix2 (0 : Fin 1) q) := by
  refine broadcastTo_apply z broadcasts_S1x128_S400x128 (ix2 p q) (ix2 (0 : Fin 1) q) fun a => ?_
  match a with
  | ⟨0, _⟩ => show 0 = if (1 : Nat) = 1 then 0 else p.val; rw [if_pos rfl]
  | ⟨1, _⟩ => show q.val = if (128 : Nat) = 1 then 0 else q.val; rw [if_neg (by decide)]

/-- The row-wise log-softmax as the second pass computes it, of any 400 × 128 block. -/
def softK (P : FVec Ideal S400x128 .f32) : FVec Ideal S400x128 .f32 :=
  subf P (broadcastTo S400x128
    (addf (log (shapeCast S400x1 (multiReduction .add [1] S400
        (exp (subf P (broadcastTo S400x128 (shapeCast S400x1 (multiReduction .maximumf [1] S400 P 0xFF800000#32 reduces_S400x128_S400 (.inl rfl) rfl) shapeCasts_S400_S400x1) broadcasts_S400x1_S400x128)))
        0x00000000#32 reduces_S400x128_S400 (.inl rfl) rfl) shapeCasts_S400_S400x1))
      (shapeCast S400x1 (multiReduction .maximumf [1] S400 P 0xFF800000#32 reduces_S400x128_S400 (.inl rfl) rfl) shapeCasts_S400_S400x1))
    broadcasts_S400x1_S400x128)

/-- At `(p, q)` it is the log-softmax of row `p` at column `q`: `P − (log Σ exp (P − M) + M)`. -/
theorem softK_apply (P : FVec Ideal S400x128 .f32) (p : Fin 400) (q : Fin 128) :
    softK P (ix2 p q) = Cheb.lsmK (fun q' : Fin 128 => P (ix2 p q')) q := by
  unfold softK Cheb.lsmK
  show P (ix2 p q) - broadcastTo S400x128 _ broadcasts_S400x1_S400x128 (ix2 p q) = _
  rw [bcol_apply]
  show P (ix2 p q) - (Ideal.log (shapeCast S400x1 _ shapeCasts_S400_S400x1 (ix2 p (0 : Fin 1))) + shapeCast S400x1 _ shapeCasts_S400_S400x1 (ix2 p (0 : Fin 1))) = _
  rw [col_apply, col_apply, rowsum_apply, rowmax_apply]
  refine congrArg (fun s => P (ix2 p q) - (Ideal.log s + _)) (Finset.sum_congr rfl fun c' _ => ?_)
  show Ideal.exp (P (ix2 p c') - broadcastTo S400x128 _ broadcasts_S400x1_S400x128 (ix2 p c')) = _
  rw [bcol_apply, col_apply, rowmax_apply]

/-- The second pass's block before the softmax: twice the product with `u`, plus the block of `v`, plus the block of
    `x` times `w₀ − w₂`, plus the bias row. -/
def P2 (v0 : Vec Ideal S400x10000 .f32) (v2 : Vec Ideal S10000x128 .f32) (v8 v11 : Vec Ideal S400x128 .f32)
    (v12 : Vec Ideal S128x128 .f32) (v16 : Vec Ideal S1x128 .f32) : FVec Ideal S400x128 .f32 :=
  addf (addf (addf (mulf (broadcast S400x128 (Scalar.ofBits .f32 0x40000000#32) : FVec Ideal S400x128 .f32)
      (matmul (φ₁ := .bf16) (φ₂ := .bf16) dot_S400x10000_S10000x128_S400x128_1_0_0_1_n_n none (truncf .bf16 (v0 : FVec Ideal S400x10000 .f32) bitsLt_bf16_f32 : FVec Ideal S400x10000 .bf16)
        (truncf .bf16 (shapeCast S10000x128 v2 shapeCasts_S10000x128_S10000x128 : FVec Ideal S10000x128 .f32) bitsLt_bf16_f32 : FVec Ideal S10000x128 .bf16)
        (constant S400x128 .f32 0x00000000#32)))
      (shapeCast S400x128 v8 shapeCasts_S400x128_S400x128 : FVec Ideal S400x128 .f32))
      (matmul (φ₁ := .f32) (φ₂ := .f32) dot_S400x128_S128x128_S400x128_1_0_0_1_n_n none (v11 : FVec Ideal S400x128 .f32) (shapeCast S128x128 v12 shapeCasts_S128x128_S128x128 : FVec Ideal S128x128 .f32)
        (constant S400x128 .f32 0x00000000#32)))
    (broadcastTo S400x128 (shapeCast S1x128 v16 shapeCasts_S1x128_S1x128 : FVec Ideal S1x128 .f32) broadcasts_S1x128_S400x128)

/-- What the second pass stores is the log-softmax of that block. -/
theorem k1_pay1_eq (v0 : Vec Ideal S400x10000 .f32) (v2 : Vec Ideal S10000x128 .f32) (v8 v11 : Vec Ideal S400x128 .f32)
    (v12 : Vec Ideal S128x128 .f32) (v16 : Vec Ideal S1x128 .f32) :
    k1_pay1 v0 v2 v8 v11 v12 v16 = softK (P2 v0 v2 v8 v11 v12 v16) := rfl

/-- The block before the softmax at `(p, q)`. -/
theorem P2_apply (v0 : Vec Ideal S400x10000 .f32) (v2 : Vec Ideal S10000x128 .f32) (v8 v11 : Vec Ideal S400x128 .f32)
    (v12 : Vec Ideal S128x128 .f32) (v16 : Vec Ideal S1x128 .f32) (p : Fin 400) (q : Fin 128) :
    P2 v0 v2 v8 v11 v12 v16 (ix2 p q)
      = ((Cheb.two * (∑ k : Fin 10000, v0 (ix2 p k) * v2 (ix2 k q)) + v8 (ix2 p q))
          + ∑ j : Fin 128, v11 (ix2 p j) * v12 (ix2 j q)) + v16 (ix2 (0 : Fin 1) q) := by
  unfold P2
  rw [shapeCast_self, shapeCast_self, shapeCast_self, shapeCast_self]
  show ((Cheb.two * FloatOps.matmul (F := Ideal) dot_S400x10000_S10000x128_S400x128_1_0_0_1_n_n none _ _ (constant S400x128 .f32 0x00000000#32) (ix2 p q) + v8 (ix2 p q))
      + FloatOps.matmul (F := Ideal) dot_S400x128_S128x128_S400x128_1_0_0_1_n_n none _ _ (constant S400x128 .f32 0x00000000#32) (ix2 p q))
      + broadcastTo S400x128 v16 broadcasts_S1x128_S400x128 (ix2 p q) = _
  rw [mmA_apply, mmB_apply, brow_apply]
  rfl

/-- So what the second pass stores, at `(p, q)`, is the log-softmax of row `p` of that block at column `q`. -/
theorem k1_pay1_apply (v0 : Vec Ideal S400x10000 .f32) (v2 : Vec Ideal S10000x128 .f32) (v8 v11 : Vec Ideal S400x128 .f32)
    (v12 : Vec Ideal S128x128 .f32) (v16 : Vec Ideal S1x128 .f32) (p : Fin 400) (q : Fin 128) :
    k1_pay1 v0 v2 v8 v11 v12 v16 (ix2 p q) = Cheb.lsmK (fun q' : Fin 128 => P2 v0 v2 v8 v11 v12 v16 (ix2 p q')) q := by
  rw [k1_pay1_eq, softK_apply]

end Cert.KernelIdeal.Pay

end
-- ==== Proof.KBlocks.lean ====
/-
  From blocks to arrays: what each launch leaves in its output arrays, as one function of the arrays it
  is entered with.

  Both launches walk the 10000 rows in 25 blocks of 400. At point `t` the graph operator's window holds
  rows `400 t … 400 t + 399` (all 10000 columns), the whole-array windows (features, weights, bias) hold
  their arrays, and the row-blocked windows hold the same 400 rows of theirs. So what point `t` writes
  back is block `t` of ONE function of the whole arrays, and since the 25 blocks tile the output array,
  the array ends holding that function.
-/
import proofs.«162648_g1778116460694_cont_7to1_379_3_alg».proof.Proof.Gen.KernelIdeal.Frame
import proofs.«162648_g1778116460694_cont_7to1_379_3_alg».proof.Proof.KPay
import Idealize.ShloMosaic.Lib.Pipeline.Value

set_option maxRecDepth 16384

noncomputable section

namespace Cert.KernelIdeal.Blocks

open Cert.KernelIdeal Cert.KernelIdeal.Gen Cert.KernelIdeal.Pay Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `(A · X) · W` at row `r`, column `c`: a 10000 × 10000 by 10000 × 128 product followed by a 128 × 128 one. -/
def mm3 (A : S10000x10000.Idx → EReal) (X : S10000x128.Idx → EReal) (W : S128x128.Idx → EReal)
    (r : Fin 10000) (c : Fin 128) : EReal :=
  ∑ j : Fin 128, (∑ k : Fin 10000, A (ix2 r k) * X (ix2 k j)) * W (ix2 j c)

/-! ## The first launch -/

/-- The first launch's index maps, decided over the 25 grid points: the row-blocked windows sit at block row `t`,
    the whole-array windows at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back into output window 4 is block `t` of `(g · x) · W`, `W` the weight matrix the
    body multiplies by there. -/
theorem flushed0_4_eq (c : Dev nD) (t : Fin cfg0.N) :
    (dat0 V c).flushed 4 t = ((cfg0.win 4).blk t).view.read (Elt Ideal)
      (fun i : S10000x128.Idx => mm3 (V c main_arg1) (V c main_arg0) (V c main_call0_v5) (i 0) (i 1)) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz, View.ld_unit_zero (S := S128x128) hz]
  obtain ⟨e00, e01, e10, e11, e20, e21, e30, e31, e40, e41, e50, e51⟩ := idx0 t
  funext y
  obtain ⟨p, q, rfl⟩ : ∃ (p : Fin 400) (q : Fin 128), y = ix2 p q := ⟨y 0, y 1, eq_ix2 y⟩
  show k0_pay2 (iblk0 V c 0 t) (iblk0 V c 1 t) (iblk0 V c 3 t) (ix2 p q)
    = mm3 (V c main_arg1) (V c main_arg0) (V c main_call0_v5) ((((cfg0.win 4).blk t).view.emb (ix2 p q)) 0) ((((cfg0.win 4).blk t).view.emb (ix2 p q)) 1)
  refine (pay2_apply _ _ _ p q).trans ?_
  unfold mm3
  have r0 : ∀ k : Fin 10000, (iblk0 V c 0 t : Vec Ideal S400x10000 .f32) (ix2 p k)
      = (V c main_arg1 : S10000x10000.Idx → EReal) (ix2 ((((cfg0.win 4).blk t).view.emb (ix2 p q)) 0) k) := fun k => by
    show (V c main_arg1 : S10000x10000.Idx → EReal) (((cfg0.win 0).blk t).view.emb (ix2 p k)) = _
    refine congrArg (V c main_arg1 : S10000x10000.Idx → EReal) (funext fun a => Fin.ext ?_)
    match a with
    | ⟨0, _⟩ => show win0_0.index t (0 : Fin 2) * 400 + 1 * p.val = win0_4.index t (0 : Fin 2) * 400 + 1 * p.val; rw [e00, e40]
    | ⟨1, _⟩ => show win0_0.index t (1 : Fin 2) * 10000 + 1 * k.val = k.val; rw [e01]; omega
  have r1 : ∀ (k : Fin 10000) (j : Fin 128), (iblk0 V c 1 t : Vec Ideal S10000x128 .f32) (ix2 k j)
      = (V c main_arg0 : S10000x128.Idx → EReal) (ix2 k j) := fun k j => by
    show (V c main_arg0 : S10000x128.Idx → EReal) (((cfg0.win 1).blk t).view.emb (ix2 k j)) = _
    refine congrArg (V c main_arg0 : S10000x128.Idx → EReal) (funext fun a => Fin.ext ?_)
    match a with
    | ⟨0, _⟩ => show win0_1.index t (0 : Fin 2) * 10000 + 1 * k.val = k.val; rw [e10]; omega
    | ⟨1, _⟩ => show win0_1.index t (1 : Fin 2) * 128 + 1 * j.val = j.val; rw [e11]; omega
  have r3 : ∀ j : Fin 128, (iblk0 V c 3 t : Vec Ideal S128x128 .f32) (ix2 j q)
      = (V c main_call0_v5 : S128x128.Idx → EReal) (ix2 j ((((cfg0.win 4).blk t).view.emb (ix2 p q)) 1)) := fun j => by
    show (V c main_call0_v5 : S128x128.Idx → EReal) (((cfg0.win 3).blk t).view.emb (ix2 j q)) = _
    refine congrArg (V c main_call0_v5 : S128x128.Idx → EReal) (funext fun a => Fin.ext ?_)
    match a with
    | ⟨0, _⟩ => show win0_3.index t (0 : Fin 2) * 128 + 1 * j.val = j.val; rw [e30]; omega
    | ⟨1, _⟩ => show win0_3.index t (1 : Fin 2) * 128 + 1 * q.val = win0_4.index t (1 : Fin 2) * 128 + 1 * q.val; rw [e31, e41]
  refine Finset.sum_congr rfl fun j _ => ?_
  exact congrArg₂ (· * ·) (Finset.sum_congr rfl fun k _ => congrArg₂ (· * ·) (r0 k) (r1 k j)) (r3 j)

/-- An index of the array is in point `t`'s block of output window 4 iff each coordinate is in the block's range. -/
theorem mem_blk0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_call0_v8_0).slice (win0_4.rect t)).set ↔ _
  rw [View.set_slice_whole, Rect.mem_set_unit]
  exact Iff.rfl

/-- Row `r` lies in the block of point `r / 400`: the 25 blocks tile the array. -/
theorem cover0_4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨e00, e01, e10, e11, e20, e21, e30, e31, e40, e41, e50, e51⟩ := idx0 ⟨(i 0).val / 400, ht⟩
  refine ⟨⟨(i 0).val / 400, ht⟩, flush0_4 _, ?_⟩
  rw [mem_blk0_4]
  intro a
  match a with
  | ⟨0, _⟩ =>
    show win0_4.index ⟨(i 0).val / 400, ht⟩ (0 : Fin 2) * 400 ≤ (i 0).val ∧ (i 0).val < win0_4.index ⟨(i 0).val / 400, ht⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, ht⟩ (1 : Fin 2) * 128 ≤ (i 1).val ∧ (i 1).val < win0_4.index ⟨(i 0).val / 400, ht⟩ (1 : Fin 2) * 128 + 128
    rw [e41]; omega

/-- So output window 4's array ends holding `(g · x) · W`. -/
theorem final0_4 (c : Dev nD) :
    (dat0 V c).arrAt 4 cfg0.N = (fun i : S10000x128.Idx => mm3 (V c main_arg1) (V c main_arg0) (V c main_call0_v5) (i 0) (i 1)) :=
  (dat0 V c).arrAt_eq_of_cover 4 _ (fun t _ => flushed0_4_eq V c t) (cover0_4)

/-- What point `t` writes back into output window 5 is block `t` of `(g · x) · W`, `W` the weight matrix the
    body multiplies by there. -/
theorem flushed0_5_eq (c : Dev nD) (t : Fin cfg0.N) :
    (dat0 V c).flushed 5 t = ((cfg0.win 5).blk t).view.read (Elt Ideal)
      (fun i : S10000x128.Idx => mm3 (V c main_arg1) (V c main_arg0) (V c main_call0_v3) (i 0) (i 1)) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz, View.ld_unit_zero (S := S128x128) hz]
  obtain ⟨e00, e01, e10, e11, e20, e21, e30, e31, e40, e41, e50, e51⟩ := idx0 t
  funext y
  obtain ⟨p, q, rfl⟩ : ∃ (p : Fin 400) (q : Fin 128), y = ix2 p q := ⟨y 0, y 1, eq_ix2 y⟩
  show k0_pay3 (iblk0 V c 0 t) (iblk0 V c 1 t) (iblk0 V c 2 t) (ix2 p q)
    = mm3 (V c main_arg1) (V c main_arg0) (V c main_call0_v3) ((((cfg0.win 5).blk t).view.emb (ix2 p q)) 0) ((((cfg0.win 5).blk t).view.emb (ix2 p q)) 1)
  refine (pay3_apply _ _ _ p q).trans ?_
  unfold mm3
  have r0 : ∀ k : Fin 10000, (iblk0 V c 0 t : Vec Ideal S400x10000 .f32) (ix2 p k)
      = (V c main_arg1 : S10000x10000.Idx → EReal) (ix2 ((((cfg0.win 5).blk t).view.emb (ix2 p q)) 0) k) := fun k => by
    show (V c main_arg1 : S10000x10000.Idx → EReal) (((cfg0.win 0).blk t).view.emb (ix2 p k)) = _
    refine congrArg (V c main_arg1 : S10000x10000.Idx → EReal) (funext fun a => Fin.ext ?_)
    match a with
    | ⟨0, _⟩ => show win0_0.index t (0 : Fin 2) * 400 + 1 * p.val = win0_5.index t (0 : Fin 2) * 400 + 1 * p.val; rw [e00, e50]
    | ⟨1, _⟩ => show win0_0.index t (1 : Fin 2) * 10000 + 1 * k.val = k.val; rw [e01]; omega
  have r1 : ∀ (k : Fin 10000) (j : Fin 128), (iblk0 V c 1 t : Vec Ideal S10000x128 .f32) (ix2 k j)
      = (V c main_arg0 : S10000x128.Idx → EReal) (ix2 k j) := fun k j => by
    show (V c main_arg0 : S10000x128.Idx → EReal) (((cfg0.win 1).blk t).view.emb (ix2 k j)) = _
    refine congrArg (V c main_arg0 : S10000x128.Idx → EReal) (funext fun a => Fin.ext ?_)
    match a with
    | ⟨0, _⟩ => show win0_1.index t (0 : Fin 2) * 10000 + 1 * k.val = k.val; rw [e10]; omega
    | ⟨1, _⟩ => show win0_1.index t (1 : Fin 2) * 128 + 1 * j.val = j.val; rw [e11]; omega
  have r3 : ∀ j : Fin 128, (iblk0 V c 2 t : Vec Ideal S128x128 .f32) (ix2 j q)
      = (V c main_call0_v3 : S128x128.Idx → EReal) (ix2 j ((((cfg0.win 5).blk t).view.emb (ix2 p q)) 1)) := fun j => by
    show (V c main_call0_v3 : S128x128.Idx → EReal) (((cfg0.win 2).blk t).view.emb (ix2 j q)) = _
    refine congrArg (V c main_call0_v3 : S128x128.Idx → EReal) (funext fun a => Fin.ext ?_)
    match a with
    | ⟨0, _⟩ => show win0_2.index t (0 : Fin 2) * 128 + 1 * j.val = j.val; rw [e20]; omega
    | ⟨1, _⟩ => show win0_2.index t (1 : Fin 2) * 128 + 1 * q.val = win0_5.index t (1 : Fin 2) * 128 + 1 * q.val; rw [e21, e51]
  refine Finset.sum_congr rfl fun j _ => ?_
  exact congrArg₂ (· * ·) (Finset.sum_congr rfl fun k _ => congrArg₂ (· * ·) (r0 k) (r1 k j)) (r3 j)

/-- An index of the array is in point `t`'s block of output window 5 iff each coordinate is in the block's range. -/
theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_call0_v8_1).slice (win0_5.rect t)).set ↔ _
  rw [View.set_slice_whole, Rect.mem_set_unit]
  exact Iff.rfl

/-- Row `r` lies in the block of point `r / 400`: the 25 blocks tile the array. -/
theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨e00, e01, e10, e11, e20, e21, e30, e31, e40, e41, e50, e51⟩ := idx0 ⟨(i 0).val / 400, ht⟩
  refine ⟨⟨(i 0).val / 400, ht⟩, flush0_5 _, ?_⟩
  rw [mem_blk0_5]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e51]; omega

/-- So output window 5's array ends holding `(g · x) · W`. -/
theorem final0_5 (c : Dev nD) :
    (dat0 V c).arrAt 5 cfg0.N = (fun i : S10000x128.Idx => mm3 (V c main_arg1) (V c main_arg0) (V c main_call0_v3) (i 0) (i 1)) :=
  (dat0 V c).arrAt_eq_of_cover 5 _ (fun t _ => flushed0_5_eq V c t) (cover0_5)

/-! ## The second launch -/

/-- The second launch's result at row `r`, column `c`, from the arrays it is entered with: the log-softmax of the row
    `2·(A·U) + Vv + X·WD + B2`. -/
def res1 (A : S10000x10000.Idx → EReal) (U X Vv : S10000x128.Idx → EReal) (WD : S128x128.Idx → EReal) (B2 : S1x128.Idx → EReal)
    (r : Fin 10000) (c : Fin 128) : EReal :=
  Cheb.lsmK (fun q' : Fin 128 =>
    ((Cheb.two * (∑ k : Fin 10000, A (ix2 r k) * U (ix2 k q')) + Vv (ix2 r q'))
      + ∑ j : Fin 128, X (ix2 r j) * WD (ix2 j q')) + B2 (ix2 (0 : Fin 1) q')) c

/-- The second launch's index maps, decided over the 25 grid points. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of that result. -/
theorem flushed1_6_eq (c : Dev nD) (t : Fin cfg1.N) :
    (dat1 V c).flushed 6 t = ((cfg1.win 6).blk t).view.read (Elt Ideal)
      (fun i : S10000x128.Idx => res1 (V c main_arg1) (V c main_call0_v8_0) (V c main_arg0) (V c main_call0_v8_1)
        (V c main_call0_v6) (V c main_call0_v7) (i 0) (i 1)) := by
  show (cfg1.win 6).cut (grid1.coords t) ((dat1 V c).after 6 t) = _
  rw [after1_6]
  unfold out1_6
  rw [View.canon_unit_zero hz]
  simp only [View.ld_unit_zero (S := S400x10000) hz, View.ld_unit_zero (S := S10000x128) hz, View.ld_unit_zero (S := S400x128) hz,
    View.ld_unit_zero (S := S128x128) hz, View.ld_unit_zero (S := S1x128) hz]
  obtain ⟨e00, e01, e10, e11, e20, e21, e30, e31, e40, e41, e50, e51, e60, e61⟩ := idx1 t
  funext y
  obtain ⟨p, q, rfl⟩ : ∃ (p : Fin 400) (q : Fin 128), y = ix2 p q := ⟨y 0, y 1, eq_ix2 y⟩
  show k1_pay1 (iblk1 V c 0 t) (iblk1 V c 1 t) (iblk1 V c 3 t) (iblk1 V c 2 t) (iblk1 V c 4 t) (iblk1 V c 5 t) (ix2 p q)
    = res1 (V c main_arg1) (V c main_call0_v8_0) (V c main_arg0) (V c main_call0_v8_1) (V c main_call0_v6) (V c main_call0_v7)
        ((((cfg1.win 6).blk t).view.emb (ix2 p q)) 0) ((((cfg1.win 6).blk t).view.emb (ix2 p q)) 1)
  refine (k1_pay1_apply _ _ _ _ _ _ p q).trans ?_
  unfold res1
  have hq : (q : Fin 128) = (((cfg1.win 6).blk t).view.emb (ix2 p q)) 1 :=
    Fin.ext (by show q.val = win1_6.index t (1 : Fin 2) * 128 + 1 * q.val; rw [e61]; omega)
  have s0 : ∀ k : Fin 10000, (iblk1 V c 0 t : Vec Ideal S400x10000 .f32) (ix2 p k)
      = (V c main_arg1 : S10000x10000.Idx → EReal) (ix2 ((((cfg1.win 6).blk t).view.emb (ix2 p q)) 0) k) := fun k => by
    show (V c main_arg1 : S10000x10000.Idx → EReal) (((cfg1.win 0).blk t).view.emb (ix2 p k)) = _
    refine congrArg (V c main_arg1 : S10000x10000.Idx → EReal) (funext fun a => Fin.ext ?_)
    match a with
    | ⟨0, _⟩ => show win1_0.index t (0 : Fin 2) * 400 + 1 * p.val = win1_6.index t (0 : Fin 2) * 400 + 1 * p.val; rw [e00, e60]
    | ⟨1, _⟩ => show win1_0.index t (1 : Fin 2) * 10000 + 1 * k.val = k.val; rw [e01]; omega
  have s1 : ∀ (k : Fin 10000) (q' : Fin 128), (iblk1 V c 1 t : Vec Ideal S10000x128 .f32) (ix2 k q')
      = (V c main_call0_v8_0 : S10000x128.Idx → EReal) (ix2 k q') := fun k q' => by
    show (V c main_call0_v8_0 : S10000x128.Idx → EReal) (((cfg1.win 1).blk t).view.emb (ix2 k q')) = _
    refine congrArg (V c main_call0_v8_0 : S10000x128.Idx → EReal) (funext fun a => Fin.ext ?_)
    match a with
    | ⟨0, _⟩ => show win1_1.index t (0 : Fin 2) * 10000 + 1 * k.val = k.val; rw [e10]; omega
    | ⟨1, _⟩ => show win1_1.index t (1 : Fin 2) * 128 + 1 * q'.val = q'.val; rw [e11]; omega
  have s2 : ∀ j : Fin 128, (iblk1 V c 2 t : Vec Ideal S400x128 .f32) (ix2 p j)
      = (V c main_arg0 : S10000x128.Idx → EReal) (ix2 ((((cfg1.win 6).blk t).view.emb (ix2 p q)) 0) j) := fun j => by
    show (V c main_arg0 : S10000x128.Idx → EReal) (((cfg1.win 2).blk t).view.emb (ix2 p j)) = _
    refine congrArg (V c main_arg0 : S10000x128.Idx → EReal) (funext fun a => Fin.ext ?_)
    match a with
    | ⟨0, _⟩ => show win1_2.index t (0 : Fin 2) * 400 + 1 * p.val = win1_6.index t (0 : Fin 2) * 400 + 1 * p.val; rw [e20, e60]
    | ⟨1, _⟩ => show win1_2.index t (1 : Fin 2) * 128 + 1 * j.val = j.val; rw [e21]; omega
  have s3 : ∀ q' : Fin 128, (iblk1 V c 3 t : Vec Ideal S400x128 .f32) (ix2 p q')
      = (V c main_call0_v8_1 : S10000x128.Idx → EReal) (ix2 ((((cfg1.win 6).blk t).view.emb (ix2 p q)) 0) q') := fun q' => by
    show (V c main_call0_v8_1 : S10000x128.Idx → EReal) (((cfg1.win 3).blk t).view.emb (ix2 p q')) = _
    refine congrArg (V c main_call0_v8_1 : S10000x128.Idx → EReal) (funext fun a => Fin.ext ?_)
    match a with
    | ⟨0, _⟩ => show win1_3.index t (0 : Fin 2) * 400 + 1 * p.val = win1_6.index t (0 : Fin 2) * 400 + 1 * p.val; rw [e30, e60]
    | ⟨1, _⟩ => show win1_3.index t (1 : Fin 2) * 128 + 1 * q'.val = q'.val; rw [e31]; omega
  have s4 : ∀ (j q' : Fin 128), (iblk1 V c 4 t : Vec Ideal S128x128 .f32) (ix2 j q')
      = (V c main_call0_v6 : S128x128.Idx → EReal) (ix2 j q') := fun j q' => by
    show (V c main_call0_v6 : S128x128.Idx → EReal) (((cfg1.win 4).blk t).view.emb (ix2 j q')) = _
    refine congrArg (V c main_call0_v6 : S128x128.Idx → EReal) (funext fun a => Fin.ext ?_)
    match a with
    | ⟨0, _⟩ => show win1_4.index t (0 : Fin 2) * 128 + 1 * j.val = j.val; rw [e40]; omega
    | ⟨1, _⟩ => show win1_4.index t (1 : Fin 2) * 128 + 1 * q'.val = q'.val; rw [e41]; omega
  have s5 : ∀ q' : Fin 128, (iblk1 V c 5 t : Vec Ideal S1x128 .f32) (ix2 (0 : Fin 1) q')
      = (V c main_call0_v7 : S1x128.Idx → EReal) (ix2 (0 : Fin 1) q') := fun q' => by
    show (V c main_call0_v7 : S1x128.Idx → EReal) (((cfg1.win 5).blk t).view.emb (ix2 (0 : Fin 1) q')) = _
    refine congrArg (V c main_call0_v7 : S1x128.Idx → EReal) (funext fun a => Fin.ext ?_)
    match a with
    | ⟨0, _⟩ => show win1_5.index t (0 : Fin 2) * 1 + 1 * 0 = 0; rw [e50]
    | ⟨1, _⟩ => show win1_5.index t (1 : Fin 2) * 128 + 1 * q'.val = q'.val; rw [e51]; omega
  refine congrArg₂ Cheb.lsmK (funext fun q' => ?_) hq
  refine (P2_apply _ _ _ _ _ _ p q').trans ?_
  exact congrArg₂ (· + ·) (congrArg₂ (· + ·) (congrArg₂ (· + ·)
    (congrArg (Cheb.two * ·) (Finset.sum_congr rfl fun k _ => congrArg₂ (· * ·) (s0 k) (s1 k q'))) (s3 q'))
    (Finset.sum_congr rfl fun j _ => congrArg₂ (· * ·) (s2 j) (s4 j q'))) (s5 q')

/-- An index of the array is in point `t`'s block of the output window iff each coordinate is in the block's range. -/
theorem mem_blk1_6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v0).slice (win1_6.rect t)).set ↔ _
  rw [View.set_slice_whole, Rect.mem_set_unit]
  exact Iff.rfl

/-- Row `r` lies in the block of point `r / 400`. -/
theorem cover1_6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 25 := N_1
  have ht : (i 0).val / 400 < cfg1.N := by rw [hN]; omega
  obtain ⟨e00, e01, e10, e11, e20, e21, e30, e31, e40, e41, e50, e51, e60, e61⟩ := idx1 ⟨(i 0).val / 400, ht⟩
  refine ⟨⟨(i 0).val / 400, ht⟩, flush1_6 _, ?_⟩
  rw [mem_blk1_6]
  intro a
  match a with
  | ⟨0, _⟩ =>
    show win1_6.index ⟨(i 0).val / 400, ht⟩ (0 : Fin 2) * 400 ≤ (i 0).val ∧ (i 0).val < win1_6.index ⟨(i 0).val / 400, ht⟩ (0 : Fin 2) * 400 + 400
    rw [e60]; show (i 0).val / 400 * 400 ≤ (i 0).val ∧ (i 0).val < (i 0).val / 400 * 400 + 400; omega
  | ⟨1, _⟩ =>
    show win1_6.index ⟨(i 0).val / 400, ht⟩ (1 : Fin 2) * 128 ≤ (i 1).val ∧ (i 1).val < win1_6.index ⟨(i 0).val / 400, ht⟩ (1 : Fin 2) * 128 + 128
    rw [e61]; omega

/-- So the second launch's output array ends holding that result. -/
theorem final1_6 (c : Dev nD) :
    (dat1 V c).arrAt 6 cfg1.N = (fun i : S10000x128.Idx => res1 (V c main_arg1) (V c main_call0_v8_0) (V c main_arg0)
      (V c main_call0_v8_1) (V c main_call0_v6) (V c main_call0_v7) (i 0) (i 1)) :=
  (dat1 V c).arrAt_eq_of_cover 6 _ (fun t _ => flushed1_6_eq V c t) (cover1_6)

end Cert.KernelIdeal.Blocks

end
-- ==== Proof.KValue.lean ====
/-
  The idealized kernel's result array as a function of its four arguments.

  The final valuation's result array is what the second launch leaves; that launch is entered with the
  graph operator and the features as launched, with `u = (g·x)·w₂` and `v = (g·x)·w₁` as the first launch
  left them, and with `w₀ − w₂` and the bias row as the host stretch computed them from the weight stack
  and the bias. Substituting, every entry is `ChebSpec`'s `outK` of the arguments.
-/
import proofs.«162648_g1778116460694_cont_7to1_379_3_alg».proof.Proof.KBlocks
import proofs.«162648_g1778116460694_cont_7to1_379_3_alg».proof.Proof.KRun
import Idealize.ShloMosaic.Lib.StableHlo.Run

set_option maxRecDepth 16384

noncomputable section

namespace Cert.KernelIdeal.KValue

open Cert.KernelIdeal Cert.KernelIdeal.Gen Cert.KernelIdeal.Blocks Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The host stretch's results, read at an index -/

/-- Weight matrix 0 of the stack, sliced out and reshaped to 128 × 128, read at `(j, q)`. -/
theorem wslice0_apply (w : S3x128x128.Idx → EReal) (j q : Fin 128) :
    shapeCast S128x128 (extractStridedSlice S1x128x128 ![0, 0, 0] w slices_S3x128x128_S1x128x128_0_0_0) shapeCasts_S1x128x128_S128x128 (ix2 j q)
      = w (ix3 (0 : Fin 3) j q) := by
  refine (shapeCast_apply _ shapeCasts_S1x128x128_S128x128 (ix2 j q) (ix3 (0 : Fin 1) j q) ?_).trans ?_
  · rw [Shape.rowMajor_val_three, Shape.rowMajor_val_two]
    show (0 * 128 + j.val) * 128 + q.val = j.val * 128 + q.val
    omega
  · exact extractStridedSlice_apply ![0, 0, 0] w slices_S3x128x128_S1x128x128_0_0_0 (ix3 (0 : Fin 1) j q) (ix3 (0 : Fin 3) j q) (fun a => match a with
      | ⟨0, _⟩ => by show (0 : Nat) = 0 + 0; rfl
      | ⟨1, _⟩ => by show j.val = 0 + j.val; omega
      | ⟨2, _⟩ => by show q.val = 0 + q.val; omega)

/-- Weight matrix 1 of the stack, sliced out and reshaped to 128 × 128, read at `(j, q)`. -/
theorem wslice1_apply (w : S3x128x128.Idx → EReal) (j q : Fin 128) :
    shapeCast S128x128 (extractStridedSlice S1x128x128 ![1, 0, 0] w slices_S3x128x128_S1x128x128_1_0_0) shapeCasts_S1x128x128_S128x128 (ix2 j q)
      = w (ix3 (1 : Fin 3) j q) := by
  refine (shapeCast_apply _ shapeCasts_S1x128x128_S128x128 (ix2 j q) (ix3 (0 : Fin 1) j q) ?_).trans ?_
  · rw [Shape.rowMajor_val_three, Shape.rowMajor_val_two]
    show (0 * 128 + j.val) * 128 + q.val = j.val * 128 + q.val
    omega
  · exact extractStridedSlice_apply ![1, 0, 0] w slices_S3x128x128_S1x128x128_1_0_0 (ix3 (0 : Fin 1) j q) (ix3 (1 : Fin 3) j q) (fun a => match a with
      | ⟨0, _⟩ => by show (1 : Nat) = 1 + 0; rfl
      | ⟨1, _⟩ => by show j.val = 0 + j.val; omega
      | ⟨2, _⟩ => by show q.val = 0 + q.val; omega)

/-- Weight matrix 2 of the stack, sliced out and reshaped to 128 × 128, read at `(j, q)`. -/
theorem wslice2_apply (w : S3x128x128.Idx → EReal) (j q : Fin 128) :
    shapeCast S128x128 (extractStridedSlice S1x128x128 ![2, 0, 0] w slices_S3x128x128_S1x128x128_2_0_0) shapeCasts_S1x128x128_S128x128 (ix2 j q)
      = w (ix3 (2 : Fin 3) j q) := by
  refine (shapeCast_apply _ shapeCasts_S1x128x128_S128x128 (ix2 j q) (ix3 (0 : Fin 1) j q) ?_).trans ?_
  · rw [Shape.rowMajor_val_three, Shape.rowMajor_val_two]
    show (0 * 128 + j.val) * 128 + q.val = j.val * 128 + q.val
    omega
  · exact extractStridedSlice_apply ![2, 0, 0] w slices_S3x128x128_S1x128x128_2_0_0 (ix3 (0 : Fin 1) j q) (ix3 (2 : Fin 3) j q) (fun a => match a with
      | ⟨0, _⟩ => by show (2 : Nat) = 2 + 0; rfl
      | ⟨1, _⟩ => by show j.val = 0 + j.val; omega
      | ⟨2, _⟩ => by show q.val = 0 + q.val; omega)

/-- The bias as a row, read at `(0, q)`. -/
theorem brow_apply (b : S128.Idx → EReal) (q : Fin 128) :
    shapeCast S1x128 b shapeCasts_S128_S1x128 (ix2 (0 : Fin 1) q) = b (ix1 q) := by
  refine shapeCast_apply b shapeCasts_S128_S1x128 (ix2 (0 : Fin 1) q) (ix1 q) ?_
  rw [Shape.rowMajor_val_one, Shape.rowMajor_val_two]
  show q.val = 0 * 128 + q.val
  omega

/-! ## The arrays each launch is entered with -/

/-- After the host stretch the graph operator and the features are as launched. -/
theorem V1_arg1 (c : Dev nD) : (V1 m ρ c main_arg1 : S10000x10000.Idx → EReal) = m ((c : Thread nD τ).loc main_arg1) := by
  show StableHlo.after (hostOps0 (F := Ideal)) (W0 m ρ c) (Proc.devRef .tc main_arg1) = _
  after_results
theorem V1_arg0 (c : Dev nD) : (V1 m ρ c main_arg0 : S10000x128.Idx → EReal) = m ((c : Thread nD τ).loc main_arg0) := by
  show StableHlo.after (hostOps0 (F := Ideal)) (W0 m ρ c) (Proc.devRef .tc main_arg0) = _
  after_results
/-- The host stretch's `w₁`, `w₂`, `w₀ − w₂` and bias row. -/
theorem V1_v3 (c : Dev nD) : (V1 m ρ c main_call0_v3 : S128x128.Idx → EReal)
    = shapeCast S128x128 (extractStridedSlice S1x128x128 ![1, 0, 0] (m ((c : Thread nD τ).loc main_arg2)) slices_S3x128x128_S1x128x128_1_0_0) shapeCasts_S1x128x128_S128x128 := by
  show StableHlo.after (hostOps0 (F := Ideal)) (W0 m ρ c) (Proc.devRef .tc main_call0_v3) = _
  after_results; rfl
theorem V1_v5 (c : Dev nD) : (V1 m ρ c main_call0_v5 : S128x128.Idx → EReal)
    = shapeCast S128x128 (extractStridedSlice S1x128x128 ![2, 0, 0] (m ((c : Thread nD τ).loc main_arg2)) slices_S3x128x128_S1x128x128_2_0_0) shapeCasts_S1x128x128_S128x128 := by
  show StableHlo.after (hostOps0 (F := Ideal)) (W0 m ρ c) (Proc.devRef .tc main_call0_v5) = _
  after_results; rfl
theorem V1_v6 (c : Dev nD) : (V1 m ρ c main_call0_v6 : S128x128.Idx → EReal)
    = subf (F := Ideal) (φ := .f32)
        (shapeCast S128x128 (extractStridedSlice S1x128x128 ![0, 0, 0] (m ((c : Thread nD τ).loc main_arg2)) slices_S3x128x128_S1x128x128_0_0_0) shapeCasts_S1x128x128_S128x128)
        (shapeCast S128x128 (extractStridedSlice S1x128x128 ![2, 0, 0] (m ((c : Thread nD τ).loc main_arg2)) slices_S3x128x128_S1x128x128_2_0_0) shapeCasts_S1x128x128_S128x128) := by
  show StableHlo.after (hostOps0 (F := Ideal)) (W0 m ρ c) (Proc.devRef .tc main_call0_v6) = _
  after_results; rfl
theorem V1_v7 (c : Dev nD) : (V1 m ρ c main_call0_v7 : S1x128.Idx → EReal)
    = shapeCast S1x128 (m ((c : Thread nD τ).loc main_arg3)) shapeCasts_S128_S1x128 := by
  show StableHlo.after (hostOps0 (F := Ideal)) (W0 m ρ c) (Proc.devRef .tc main_call0_v7) = _
  after_results; rfl

/-- The first launch leaves its inputs and the host stretch's results as it found them. -/
theorem V2_arg1 (c : Dev nD) : (V2 m ρ c main_arg1 : S10000x10000.Idx → EReal) = m ((c : Thread nD τ).loc main_arg1) :=
  ((W2_arr m ρ c 0).trans (((dat0 (V1 m ρ) c).arrAt_in 0 rfl _).trans (A_eq0 (V1 m ρ) c 0))).trans (V1_arg1 m ρ c)
theorem V2_arg0 (c : Dev nD) : (V2 m ρ c main_arg0 : S10000x128.Idx → EReal) = m ((c : Thread nD τ).loc main_arg0) :=
  ((W2_arr m ρ c 1).trans (((dat0 (V1 m ρ) c).arrAt_in 1 rfl _).trans (A_eq0 (V1 m ρ) c 1))).trans (V1_arg0 m ρ c)
theorem V2_v6 (c : Dev nD) : (V2 m ρ c main_call0_v6 : S128x128.Idx → EReal) = V1 m ρ c main_call0_v6 :=
  W2_of_ne m ρ c main_call0_v6 (by decide)
theorem V2_v7 (c : Dev nD) : (V2 m ρ c main_call0_v7 : S1x128.Idx → EReal) = V1 m ρ c main_call0_v7 :=
  W2_of_ne m ρ c main_call0_v7 (by decide)
/-- … and its two output arrays at `(g·x)·w₂` and `(g·x)·w₁`. -/
theorem V2_u (c : Dev nD) : (V2 m ρ c main_call0_v8_0 : S10000x128.Idx → EReal)
    = fun i : S10000x128.Idx => mm3 (V1 m ρ c main_arg1) (V1 m ρ c main_arg0) (V1 m ρ c main_call0_v5) (i 0) (i 1) :=
  (W2_arr m ρ c 4).trans (final0_4 (V1 m ρ) c)
theorem V2_v (c : Dev nD) : (V2 m ρ c main_call0_v8_1 : S10000x128.Idx → EReal)
    = fun i : S10000x128.Idx => mm3 (V1 m ρ c main_arg1) (V1 m ρ c main_arg0) (V1 m ρ c main_call0_v3) (i 0) (i 1) :=
  (W2_arr m ρ c 5).trans (final0_5 (V1 m ρ) c)

/-! ## The result -/

/-- `(g·x)·W` with `W` weight matrix `K` of the stack is ChebSpec's `T₁·w_K`. -/
theorem mm3_eq (x : S10000x128.Idx → EReal) (g : S10000x10000.Idx → EReal) (w : S3x128x128.Idx → EReal)
    (W : S128x128.Idx → EReal) (K : Fin 3) (hW : ∀ j q : Fin 128, W (ix2 j q) = w (ix3 K j q)) (r : Fin 10000) (q : Fin 128) :
    mm3 g x W r q = ∑ j : Fin 128, Cheb.t1 x g r j * w (ix3 K j q) := by
  unfold mm3 Cheb.t1
  exact Finset.sum_congr rfl fun j _ => congrArg (_ * ·) (hW j q)

/-- The second launch's result, entered with `u = T₁·w₂`, `v = T₁·w₁`, `w₀ − w₂` and the bias row, is ChebSpec's `outK`. -/
theorem res1_eq (x : S10000x128.Idx → EReal) (g : S10000x10000.Idx → EReal) (w : S3x128x128.Idx → EReal) (b : S128.Idx → EReal)
    (U Vv : S10000x128.Idx → EReal) (WD : S128x128.Idx → EReal) (B2 : S1x128.Idx → EReal)
    (hU : ∀ (k : Fin 10000) (q' : Fin 128), U (ix2 k q') = Cheb.tw2 x g w k q')
    (hV : ∀ (r : Fin 10000) (q' : Fin 128), Vv (ix2 r q') = Cheb.tw1 x g w r q')
    (hWD : ∀ j q' : Fin 128, WD (ix2 j q') = w (ix3 0 j q') - w (ix3 2 j q'))
    (hB : ∀ q' : Fin 128, B2 (ix2 (0 : Fin 1) q') = b (ix1 q')) (r : Fin 10000) (q : Fin 128) :
    res1 g U x Vv WD B2 r q = Cheb.outK x g w b r q := by
  unfold res1 Cheb.outK
  refine congrArg (fun f => Cheb.lsmK f q) (funext fun q' => ?_)
  unfold Cheb.preK
  exact congrArg₂ (· + ·) (congrArg₂ (· + ·) (congrArg₂ (· + ·)
    (congrArg (Cheb.two * ·) (Finset.sum_congr rfl fun k _ => congrArg (_ * ·) (hU k q'))) (hV r q'))
    (Finset.sum_congr rfl fun j _ => congrArg (_ * ·) (hWD j q'))) (hB q')

/-- The result array of the final valuation is ChebSpec's `outK` of the four arguments. -/
theorem result (c : Dev nD) :
    (W3 m ρ c (Proc.devRef .tc main_v0) : S10000x128.Idx → EReal)
      = fun i : S10000x128.Idx => Cheb.outK (m ((c : Thread nD τ).loc main_arg0)) (m ((c : Thread nD τ).loc main_arg1))
          (m ((c : Thread nD τ).loc main_arg2)) (m ((c : Thread nD τ).loc main_arg3)) (i 0) (i 1) := by
  refine ((W3_arr m ρ c 6).trans (final1_6 (V2 m ρ) c)).trans ?_
  funext i
  obtain ⟨r, q, rfl⟩ : ∃ (r : Fin 10000) (q : Fin 128), i = ix2 r q := ⟨i 0, i 1, eq_ix2 i⟩
  show res1 (V2 m ρ c main_arg1) (V2 m ρ c main_call0_v8_0) (V2 m ρ c main_arg0) (V2 m ρ c main_call0_v8_1)
      (V2 m ρ c main_call0_v6) (V2 m ρ c main_call0_v7) r q = Cheb.outK _ _ _ _ r q
  rw [V2_arg1, V2_arg0]
  refine res1_eq (m ((c : Thread nD τ).loc main_arg0)) (m ((c : Thread nD τ).loc main_arg1)) (m ((c : Thread nD τ).loc main_arg2))
    (m ((c : Thread nD τ).loc main_arg3)) _ _ _ _ ?_ ?_ ?_ ?_ r q
  · intro k q'
    refine (congrFun (V2_u m ρ c) (ix2 k q')).trans ?_
    show mm3 (V1 m ρ c main_arg1) (V1 m ρ c main_arg0) (V1 m ρ c main_call0_v5) k q' = _
    rw [V1_arg1, V1_arg0]
    exact mm3_eq _ _ (m ((c : Thread nD τ).loc main_arg2)) _ 2
      (fun j q => (congrFun (V1_v5 m ρ c) (ix2 j q)).trans (wslice2_apply _ j q)) k q'
  · intro r' q'
    refine (congrFun (V2_v m ρ c) (ix2 r' q')).trans ?_
    show mm3 (V1 m ρ c main_arg1) (V1 m ρ c main_arg0) (V1 m ρ c main_call0_v3) r' q' = _
    rw [V1_arg1, V1_arg0]
    exact mm3_eq _ _ (m ((c : Thread nD τ).loc main_arg2)) _ 1
      (fun j q => (congrFun (V1_v3 m ρ c) (ix2 j q)).trans (wslice1_apply _ j q)) r' q'
  · intro j q'
    refine (congrFun ((V2_v6 m ρ c).trans (V1_v6 m ρ c)) (ix2 j q')).trans ?_
    exact congrArg₂ (· - ·) (wslice0_apply (m ((c : Thread nD τ).loc main_arg2)) j q') (wslice2_apply (m ((c : Thread nD τ).loc main_arg2)) j q')
  · intro q'
    refine (congrFun ((V2_v7 m ρ c).trans (V1_v7 m ρ c)) (ix2 (0 : Fin 1) q')).trans ?_
    exact brow_apply (m ((c : Thread nD τ).loc main_arg3)) q'

end Cert.KernelIdeal.KValue

end
-- ==== Proof.RefValue.lean ====
/-
  The reference program's run, read as the specification's `outR`.

  The reference is a straight line of 35 array operations: twenty compute the pre-softmax value
  `h = x·w₀ + T₁·w₁ + (2·(g·T₁) − x)·w₂ + b` with `T₁ = g·x`, fifteen compute its row-wise
  log-softmax `(h − M) − log (0 + Σ exp (h − M))`, `M` the row maximum compared once more with
  minus infinity.

  Three parts.  (1) The stage equation: after the 35 operations the result buffer holds the
  composed value of the four argument buffers.  The line is cut after the twentieth operation:
  the first twenty leave the pre-softmax value, the last fifteen leave a function `L` of that one
  array, and the composed value is `L` of the pre-softmax value by unfolding.  (2) The reading:
  that composed value at the entry `(r, c)` is `outR x g w b r c` — each matrix product a sum over
  the contracted coordinate, each slice-and-reshape of the weights the entry `(k, j, c)` of `w`
  (`(j·128 + c) / 128 % 128 = j`, `(j·128 + c) % 128 = c`), each broadcast a re-indexing, the row
  maximum the fold of `max` over the row's 128 coordinates.  (3) The run: every weakly fair
  execution terminates with each buffer at the fold of the operations over its launch contents;
  the result buffer by (1) and (2), the four argument buffers untouched since no operation writes
  them.
-/
import proofs.«162648_g1778116460694_cont_7to1_379_3_alg».proof.Proof.RefReadP
import proofs.«162648_g1778116460694_cont_7to1_379_3_alg».proof.Proof.ChebSpec

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Idealize.ShloMosaic.ValueIdx

/-! ### The stage equation: what the 35 operations leave in the result buffer -/

section Stage

variable {F : FTy → Type} [FloatOps F]

/-- Running two lines one after the other is running their concatenation. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The first twenty operations: the Chebyshev convolution, up to the pre-softmax value. -/
abbrev ops1 : List (HloOp τ sig (Elt F)) := (ops (F := F)).take 20

/-- The last fifteen operations: the log-softmax of the buffer the first twenty wrote. -/
abbrev ops2 : List (HloOp τ sig (Elt F)) := (ops (F := F)).drop 20

/-- The program's 35 operations are those twenty followed by those fifteen. -/
theorem ops_split : (ops : List (HloOp τ sig (Elt F))) = ops1 ++ ops2 := (List.take_append_drop 20 _).symm

/-- The row maximum of an array `h`, started from minus infinity. -/
def Lmax (h : (⟨S10000x128, .f32⟩ : BufTy).Contents (Elt F)) : (⟨S10000, .f32⟩ : BufTy).Contents (Elt F) :=
  Host.reduce FloatOps.maximumf h (constant S_ .f32 0xFF800000#32) reducesTo_S10000x128_S10000_d1 h_S_

/-- `h` minus its row maximum (the maximum compared once more with minus infinity, then spread back
    over the row). -/
def Lsub (h : (⟨S10000x128, .f32⟩ : BufTy).Contents (Elt F)) : (⟨S10000x128, .f32⟩ : BufTy).Contents (Elt F) :=
  subf h (broadcastInDim S10000x128 ![0, 1] bcast_S10000x1_S10000x128_0_1
    (broadcastInDim S10000x1 ![0] bcast_S10000_S10000x1_0
      (maximumf (broadcastInDim S10000 ![] bcast_S_S10000 (constant S_ .f32 0xFF800000#32)) (Lmax h))))

/-- The log-softmax of an array `h`, as the last fifteen operations compute it. -/
def L (h : (⟨S10000x128, .f32⟩ : BufTy).Contents (Elt F)) : (⟨S10000x128, .f32⟩ : BufTy).Contents (Elt F) :=
  subf (Lsub h) (broadcastInDim S10000x128 ![0, 1] bcast_S10000x1_S10000x128_0_1
    (Host.log (broadcastInDim S10000x1 ![0] bcast_S10000_S10000x1_0
      (Host.reduceAdd (Host.exp (Lsub h)) (constant S_ .f32 0x00000000#32) reducesTo_S10000x128_S10000_d1 h_S_))))

/-- The result of the whole program is the log-softmax of the pre-softmax value. -/
theorem v19_eq_L (x0 : (⟨S10000x128, .f32⟩ : BufTy).Contents (Elt F)) (x1 : (⟨S10000x10000, .f32⟩ : BufTy).Contents (Elt F))
    (x2 : (⟨S3x128x128, .f32⟩ : BufTy).Contents (Elt F)) (x3 : (⟨S128, .f32⟩ : BufTy).Contents (Elt F)) :
    val_main_v19 (F := F) x0 x1 x2 x3 = L (val_main_v18 (F := F) x0 x1 x2 x3) := rfl

set_option maxHeartbeats 400000 in
/-- The first twenty operations leave the pre-softmax value in its buffer. -/
theorem stage_a (W : Valuation τ sig (Elt F)) :
    after (ops1 (F := F)) W (Proc.devRef .tc main_v18)
      = val_main_v18 (F := F) (W (Proc.devRef .tc main_arg0)) (W (Proc.devRef .tc main_arg1))
          (W (Proc.devRef .tc main_arg2)) (W (Proc.devRef .tc main_arg3)) := by
  simp only [ops1, ops, List.take_succ_cons, List.take_zero]
  after_results_simp
  rfl

/-- A value stored through a typed reference and read back through it is the value. -/
theorem ofBuf_toBuf {Val : EltTy → Type} {T : BufTy} (x : TRef sig T) (v : T.Contents Val) : x.ofBuf (x.toBuf v) = v := by
  obtain ⟨r, h, h2, h3⟩ := x
  subst h
  rfl
/-- Storing through the result buffer's typed reference is the identity: its type is the value's. -/
theorem toBuf_v19 {Val : EltTy → Type} (h1 : main_v19.ty = ⟨S10000x128, .f32⟩) (h2 : main_v19.space ≠ .host) (h3 : main_v19.isScoped = false)
    (v : (⟨S10000x128, .f32⟩ : BufTy).Contents Val) : (TRef.of (T := ⟨S10000x128, .f32⟩) main_v19 h1 h2 h3).toBuf v = v := rfl
/-- Reading through the pre-softmax buffer's typed reference is the identity likewise. -/
theorem ofBuf_v18 {Val : EltTy → Type} (h1 : main_v18.ty = ⟨S10000x128, .f32⟩) (h2 : main_v18.space ≠ .host) (h3 : main_v18.isScoped = false)
    (u : main_v18.ty.Contents Val) : (TRef.of (T := ⟨S10000x128, .f32⟩) main_v18 h1 h2 h3).ofBuf u = u := rfl

set_option maxHeartbeats 400000 in
/-- The last fifteen operations leave the log-softmax of that buffer in the result buffer. -/
theorem stage_b (W : Valuation τ sig (Elt F)) :
    after (ops2 (F := F)) W (Proc.devRef .tc main_v19) = L (F := F) (W (Proc.devRef .tc main_v18)) := by
  simp only [ops2, ops, List.drop_succ_cons, List.drop_zero]
  after_results_simp
  simp only [ofBuf_toBuf, toBuf_v19, ofBuf_v18]
  rfl

/-- After all 35 operations the result buffer holds the composed value of the four arguments. -/
theorem stage (W : Valuation τ sig (Elt F)) :
    after (ops (F := F)) W (Proc.devRef .tc main_v19)
      = val_main_v19 (F := F) (W (Proc.devRef .tc main_arg0)) (W (Proc.devRef .tc main_arg1))
          (W (Proc.devRef .tc main_arg2)) (W (Proc.devRef .tc main_arg3)) := by
  rw [v19_eq_L, ← stage_a W, ← stage_b (after ops1 W), ← after_append, ← ops_split]

end Stage

/-! ### The reading: the composed value, entry by entry, is the specification's `outR` -/

section Reading

/-- Products are equal when their factors are. -/
theorem mul_congr {a a' b b' : EReal} (h1 : a = a') (h2 : b = b') : a * b = a' * b' := by rw [h1, h2]

/-- Two rank-2 indices with the same two coordinates are equal. -/
local macro "idx2" : tactic =>
  `(tactic| exact funext fun a => Fin.ext (by match a with | ⟨0, _⟩ => rfl | ⟨1, _⟩ => rfl))

variable (x : (⟨S10000x128, .f32⟩ : BufTy).Contents (Elt Ideal)) (g : (⟨S10000x10000, .f32⟩ : BufTy).Contents (Elt Ideal))
  (w : (⟨S3x128x128, .f32⟩ : BufTy).Contents (Elt Ideal)) (b : (⟨S128, .f32⟩ : BufTy).Contents (Elt Ideal))

/-- The first product `g · x` is the first Chebyshev term. -/
theorem read_v0 (r : Fin 10000) (j : Fin 128) : val_main_v0 (F := Ideal) x g (ix2 r j) = Cheb.t1 x g r j := by
  rw [val_main_v0_apply]
  show _ = ∑ k : Fin 10000, g (ix2 r k) * x (ix2 k j)
  exact Finset.sum_congr rfl fun k _ => mul_congr (congrArg g (by idx2)) (congrArg x (by idx2))

/-- The broadcast constant is the factor two of the recurrence. -/
theorem read_v2 (i : S10000x128.Idx) : val_main_v2 (F := Ideal) i = Cheb.two := by
  rw [val_main_v2_apply]; rfl

/-- The second product is `g · T₁`. -/
theorem read_v1 (r : Fin 10000) (j : Fin 128) :
    val_main_v1 (F := Ideal) x g (ix2 r j) = ∑ k : Fin 10000, g (ix2 r k) * Cheb.t1 x g k j := by
  rw [val_main_v1_apply]
  exact Finset.sum_congr rfl fun k _ => mul_congr (congrArg g (by idx2))
    ((congrArg (val_main_v0 (F := Ideal) x g) (by idx2)).trans (read_v0 x g k j))

/-- The recurrence `T₂ = 2 · (g · T₁) − T₀`. -/
theorem read_v4 (r : Fin 10000) (j : Fin 128) :
    val_main_v4 (F := Ideal) x g (ix2 r j)
      = Cheb.two * (∑ k : Fin 10000, g (ix2 r k) * Cheb.t1 x g k j) - x (ix2 r j) := by
  rw [val_main_v4_apply, val_main_v3_apply, read_v2, read_v1]; rfl

/-- The slice of the weights at offset 0, reshaped to a matrix, reads `w` at `(0, j, c)`:
    `(j · 128 + c) / 128 % 128 = j` and `(j · 128 + c) % 128 = c` for `j, c < 128`. -/
theorem read_w0 (j c : Fin 128) : val_main_v6 (F := Ideal) w (ix2 j c) = w (ix3 0 j c) := by
  rw [val_main_v6_apply, val_main_v5_apply]
  exact congrArg w (funext fun a => Fin.ext (by
    have hj := j.isLt; have hc := c.isLt
    match a with
    | ⟨0, _⟩ => rfl
    | ⟨1, _⟩ =>
      show (j.val * 128 + c.val) / 128 % 128 = j.val
      omega
    | ⟨2, _⟩ =>
      show (j.val * 128 + c.val) % 128 = c.val
      omega))

/-- The same at offset 1. -/
theorem read_w1 (j c : Fin 128) : val_main_v9 (F := Ideal) w (ix2 j c) = w (ix3 1 j c) := by
  rw [val_main_v9_apply, val_main_v8_apply]
  exact congrArg w (funext fun a => Fin.ext (by
    have hj := j.isLt; have hc := c.isLt
    match a with
    | ⟨0, _⟩ => rfl
    | ⟨1, _⟩ =>
      show (j.val * 128 + c.val) / 128 % 128 = j.val
      omega
    | ⟨2, _⟩ =>
      show (j.val * 128 + c.val) % 128 = c.val
      omega))

/-- The same at offset 2. -/
theorem read_w2 (j c : Fin 128) : val_main_v13 (F := Ideal) w (ix2 j c) = w (ix3 2 j c) := by
  rw [val_main_v13_apply, val_main_v12_apply]
  exact congrArg w (funext fun a => Fin.ext (by
    have hj := j.isLt; have hc := c.isLt
    match a with
    | ⟨0, _⟩ => rfl
    | ⟨1, _⟩ =>
      show (j.val * 128 + c.val) / 128 % 128 = j.val
      omega
    | ⟨2, _⟩ =>
      show (j.val * 128 + c.val) % 128 = c.val
      omega))

/-- `x · w₀`. -/
theorem read_v7 (r : Fin 10000) (c : Fin 128) :
    val_main_v7 (F := Ideal) x w (ix2 r c) = ∑ j : Fin 128, x (ix2 r j) * w (ix3 0 j c) := by
  rw [val_main_v7_apply]
  exact Finset.sum_congr rfl fun j _ => mul_congr (congrArg x (by idx2))
    ((congrArg (val_main_v6 (F := Ideal) w) (by idx2)).trans (read_w0 w j c))

/-- `T₁ · w₁`. -/
theorem read_v10 (r : Fin 10000) (c : Fin 128) :
    val_main_v10 (F := Ideal) x g w (ix2 r c) = ∑ j : Fin 128, Cheb.t1 x g r j * w (ix3 1 j c) := by
  rw [val_main_v10_apply]
  exact Finset.sum_congr rfl fun j _ => mul_congr
    ((congrArg (val_main_v0 (F := Ideal) x g) (by idx2)).trans (read_v0 x g r j))
    ((congrArg (val_main_v9 (F := Ideal) w) (by idx2)).trans (read_w1 w j c))

/-- `T₂ · w₂`. -/
theorem read_v14 (r : Fin 10000) (c : Fin 128) :
    val_main_v14 (F := Ideal) x g w (ix2 r c)
      = ∑ j : Fin 128, (Cheb.two * (∑ k : Fin 10000, g (ix2 r k) * Cheb.t1 x g k j) - x (ix2 r j)) * w (ix3 2 j c) := by
  rw [val_main_v14_apply]
  exact Finset.sum_congr rfl fun j _ => mul_congr
    ((congrArg (val_main_v4 (F := Ideal) x g) (by idx2)).trans (read_v4 x g r j))
    ((congrArg (val_main_v13 (F := Ideal) w) (by idx2)).trans (read_w2 w j c))

/-- The bias, spread over the rows. -/
theorem read_v17 (r : Fin 10000) (c : Fin 128) : val_main_v17 (F := Ideal) b (ix2 r c) = b (ix1 c) := by
  rw [val_main_v17_apply, val_main_v16_apply]
  exact congrArg b (funext fun a => Fin.ext (by match a with | ⟨0, _⟩ => rfl))

/-- The pre-softmax value is the specification's. -/
theorem read_v18 (r : Fin 10000) (c : Fin 128) :
    val_main_v18 (F := Ideal) x g w b (ix2 r c) = Cheb.preR x g w b r c := by
  rw [val_main_v18_apply, val_main_v15_apply, val_main_v11_apply, read_v7, read_v10, read_v14, read_v17]
  rfl

/-- The row maximum, compared once more with minus infinity: a reduction over the one axis of
    length 128 is the fold of `max` over that axis's coordinates. -/
theorem read_max (r : Fin 10000) :
    val_main_call0_v2 (F := Ideal) x g w b (ix1 r)
      = max Cheb.ninf (Cheb.rowMax fun c' : Fin 128 => val_main_v18 (F := Ideal) x g w b (ix2 r c')) := by
  rw [val_main_call0_v2_apply, val_main_call0_v1_apply, val_main_call0_cst_0_apply]
  unfold val_main_call0_v0
  rw [Host.reduce_eq_fold_single FloatOps.maximumf _ _ Facts₀.reducesTo_S10000x128_S10000_d1
    (by decide : S10000x128.Reduces [1] S10000) Facts₀.h_S_ (ix1 r)]
  have hlift : (val_main_v18 (F := Ideal) x g w b) ∘ ((by decide : S10000x128.Reduces [1] S10000).lift (ix1 r))
      = fun c' : Fin 128 => val_main_v18 (F := Ideal) x g w b (ix2 r c') :=
    funext fun k => congrArg (val_main_v18 (F := Ideal) x g w b) (by idx2)
  rw [hlift]
  rfl

/-- The array minus its row maximum. -/
theorem read_c5 (r : Fin 10000) (c : Fin 128) :
    val_main_call0_v5 (F := Ideal) x g w b (ix2 r c)
      = val_main_v18 (F := Ideal) x g w b (ix2 r c)
        - max Cheb.ninf (Cheb.rowMax fun c' : Fin 128 => val_main_v18 (F := Ideal) x g w b (ix2 r c')) := by
  rw [val_main_call0_v5_apply, val_main_call0_v4_apply, val_main_call0_v3_apply,
    show idx_main_call0_v3 (idx_main_call0_v4 (ix2 r c)) = ix1 r from
      funext fun a => Fin.ext (by match a with | ⟨0, _⟩ => rfl),
    read_max]
  rfl

/-- The logarithm of the row sum of exponentials, spread back over the row. -/
theorem read_c10 (r : Fin 10000) (c : Fin 128) :
    val_main_call0_v10 (F := Ideal) x g w b (ix2 r c)
      = Ideal.log (Cheb.zero + ∑ c' : Fin 128, Ideal.exp (val_main_v18 (F := Ideal) x g w b (ix2 r c')
          - max Cheb.ninf (Cheb.rowMax fun c'' : Fin 128 => val_main_v18 (F := Ideal) x g w b (ix2 r c'')))) := by
  rw [val_main_call0_v10_apply, val_main_call0_v9_apply, val_main_call0_v8_apply,
    show idx_main_call0_v8 (idx_main_call0_v10 (ix2 r c)) = ix1 r from
      funext fun a => Fin.ext (by match a with | ⟨0, _⟩ => rfl),
    val_main_call0_v7_apply]
  have hk : ∀ k : Fin 128, val_main_call0_v6 (F := Ideal) x g w b (idx_main_call0_v7 (ix1 r) k)
      = Ideal.exp (val_main_v18 (F := Ideal) x g w b (ix2 r k)
          - max Cheb.ninf (Cheb.rowMax fun c'' : Fin 128 => val_main_v18 (F := Ideal) x g w b (ix2 r c''))) := fun k => by
    rw [show idx_main_call0_v7 (ix1 r) k = ix2 r k from by idx2, val_main_call0_v6_apply, read_c5]
    rfl
  rw [Finset.sum_congr rfl fun k _ => hk k]
  rfl

/-- The program's result at `(r, c)` is the specification's log-softmax of the pre-softmax row. -/
theorem read_v19 (r : Fin 10000) (c : Fin 128) :
    val_main_v19 (F := Ideal) x g w b (ix2 r c)
      = Cheb.lsmR (fun c' : Fin 128 => val_main_v18 (F := Ideal) x g w b (ix2 r c')) c := by
  rw [val_main_v19_apply, read_c5, read_c10]
  rfl

/-- The composed value of the four arguments is, entry by entry, the specification's `outR`. -/
theorem reading (i : S10000x128.Idx) :
    val_main_v19 (F := Ideal) x g w b i = Cert.Cheb.outR x g w b (i 0) (i 1) := by
  obtain ⟨r, c, rfl⟩ : ∃ (r : Fin 10000) (c : Fin 128), i = ix2 r c := ⟨i 0, i 1, eq_ix2 i⟩
  rw [read_v19]
  show _ = Cheb.lsmR (Cheb.preR x g w b r) c
  exact congrArg (fun p => Cheb.lsmR p c) (funext fun c' => read_v18 x g w b r c')

end Reading

/-! ### The run -/

section Run

/-- No operation writes an argument buffer: after all 35 operations each still holds what it held. -/
theorem keep_arg0 (W : Valuation τ sig (Elt Ideal)) :
    after (ops (F := Ideal)) W (Proc.devRef .tc main_arg0) = W (Proc.devRef .tc main_arg0) := by
  after_results_simp
theorem keep_arg1 (W : Valuation τ sig (Elt Ideal)) :
    after (ops (F := Ideal)) W (Proc.devRef .tc main_arg1) = W (Proc.devRef .tc main_arg1) := by
  after_results_simp
theorem keep_arg2 (W : Valuation τ sig (Elt Ideal)) :
    after (ops (F := Ideal)) W (Proc.devRef .tc main_arg2) = W (Proc.devRef .tc main_arg2) := by
  after_results_simp
theorem keep_arg3 (W : Valuation τ sig (Elt Ideal)) :
    after (ops (F := Ideal)) W (Proc.devRef .tc main_arg3) = W (Proc.devRef .tc main_arg3) := by
  after_results_simp

/-- every weakly fair execution of the reference terminates, its result array at ChebSpec's `outR` of the argument arrays, the arguments unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = (fun i : S10000x128.Idx => Cert.Cheb.outR (m ((c.tc : Thread nD τ).loc main_arg0)) (m ((c.tc : Thread nD τ).loc main_arg1))
            (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v19).trans ((stage (launchContents m c)).trans (funext fun i => reading _ _ _ _ i)),
       (h c main_arg0).trans (keep_arg0 _), (h c main_arg1).trans (keep_arg1 _),
       (h c main_arg2).trans (keep_arg2 _), (h c main_arg3).trans (keep_arg3 _)⟩)
    (run_seq scopedRefs_eq scopedSems_eq defs main (fun _ => ops) main_eq (fun _ => ops_sub) m ρ)

end Run

end Cert.ReferenceIdeal.RefValue

end
-- ==== Proof.ChebAlgebra.lean ====
/-
  Algebra of the certificate: wherever the four arrays hold real numbers, the regrouped Chebyshev
  convolution followed by the regrouped log-softmax (the kernel's order of operations) equals the
  textbook order (the reference's).

  The extended reals are not a ring (multiplication does not distribute over addition once an
  infinity is present), so every pre-softmax value is first shown to be the coercion of a REAL
  formula; the regrouping is then an identity of finite real sums, proved over abstract index
  types so that no sum over the literal extents is ever unfolded.  The softmax step needs only
  that the row maximum of a row of reals is a real, and the identity
  `a - (L + m) = (a - m) - L` for reals `a, m` and ANY extended real `L`.
-/
import proofs.«162648_g1778116460694_cont_7to1_379_3_alg».proof.Proof.ChebSpec
import Idealize.ShloMosaic.PureOps.Ideal
import Mathlib.Data.EReal.Operations
import Mathlib.Data.Finset.Fold
import Mathlib.Algebra.BigOperators.Ring.Finset
import Mathlib.Tactic.Ring

noncomputable section

namespace Cert.Cheb

open Idealize.ShloMosaic Idealize.ShloMosaic.ValueIdx

/-! ### The three constants -/

/-- The pattern `0x40000000` denotes the real number two. -/
theorem two_eq : two = ((2 : ℝ) : EReal) := by
  simp [Ideal.ofBits, Ideal.ieee, -EReal.coe_mul]; norm_num

/-- The pattern `0xFF800000` denotes minus infinity. -/
theorem ninf_eq : ninf = ⊥ := by
  simp [Ideal.ofBits, Ideal.ieee]

/-- The pattern `0x00000000` denotes zero. -/
theorem zero_eq : zero = 0 := by
  simp [Ideal.ofBits, Ideal.ieee]

/-! ### Coercion of a finite real sum -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The regrouping, in the reals -/

/-- For real data over arbitrary finite index types: reading the graph operator row `Gr` against
    `T · W₂` and subtracting `X · W₂` inside `X · (W₀ − W₂)` gives the same number as forming
    `2·(g·T) − X` first and multiplying by `W₂` afterwards.  `t` is the factor of the recurrence;
    the identity holds for every real `t`. -/
theorem real_regroup {ι κ : Type*} [Fintype ι] [Fintype κ] (t : ℝ) (Gr : ι → ℝ) (T : ι → κ → ℝ)
    (Tr Xr W0 W1 W2 : κ → ℝ) (Bc : ℝ) :
    ((t * (∑ k, Gr k * ∑ j, T k j * W2 j) + ∑ j, Tr j * W1 j) + ∑ j, Xr j * (W0 j - W2 j)) + Bc
      = ((∑ j, Xr j * W0 j + ∑ j, Tr j * W1 j)
          + ∑ j, (t * (∑ k, Gr k * T k j) - Xr j) * W2 j) + Bc := by
  have h1 : ∑ k, Gr k * ∑ j, T k j * W2 j = ∑ j, (∑ k, Gr k * T k j) * W2 j := by
    simp_rw [Finset.mul_sum, Finset.sum_mul]
    rw [Finset.sum_comm]
    simp only [mul_assoc]
  have h2 : ∑ j, Xr j * (W0 j - W2 j) = ∑ j, Xr j * W0 j - ∑ j, Xr j * W2 j := by
    simp_rw [mul_sub, Finset.sum_sub_distrib]
  have h3 : ∀ A : κ → ℝ,
      ∑ j, (t * A j - Xr j) * W2 j = t * ∑ j, A j * W2 j - ∑ j, Xr j * W2 j := by
    intro A
    rw [Finset.mul_sum, ← Finset.sum_sub_distrib]
    exact Finset.sum_congr rfl fun j _ => by ring
  rw [h1, h2, h3 fun j => ∑ k, Gr k * T k j]; ring

/-! ### The softmax step -/

/-- For reals `a, m` and ANY extended real `L`: `a - (L + m) = (a - m) - L`.  At `L = ⊥` both
    sides are `⊤`, at `L = ⊤` both are `⊥`, and for a real `L` it is an identity of reals. -/
theorem coe_sub_add_coe (a m : ℝ) (L : EReal) :
    (a : EReal) - (L + (m : EReal)) = ((a : EReal) - (m : EReal)) - L := by
  induction L using EReal.rec with
  | bot => rw [EReal.bot_add, ← EReal.coe_sub, EReal.coe_sub_bot, EReal.coe_sub_bot]
  | top => rw [EReal.top_add_coe, EReal.sub_top, EReal.sub_top]
  | coe l =>
    rw [← EReal.coe_add, ← EReal.coe_sub, ← EReal.coe_sub, ← EReal.coe_sub]
    congr 1; ring

/-- The maximum of a row of reals, started from minus infinity, is a real: it is at least the
    row's first entry, which is above `⊥`, and every entry and the starting value are below `⊤`. -/
theorem rowMax_coe (P : Fin 128 → ℝ) : ∃ μ : ℝ, rowMax (fun c => (P c : EReal)) = (μ : EReal) := by
  have hbot : rowMax (fun c => (P c : EReal)) ≠ ⊥ := by
    have h : ((P 0 : ℝ) : EReal) ≤ rowMax (fun c => (P c : EReal)) :=
      (Finset.le_fold_max _).mpr (Or.inr ⟨0, Finset.mem_univ _, le_rfl⟩)
    exact ne_bot_of_le_ne_bot (EReal.coe_ne_bot _) h
  have htop : rowMax (fun c => (P c : EReal)) ≠ ⊤ := by
    have h : rowMax (fun c => (P c : EReal)) < ⊤ := by
      unfold rowMax
      rw [Finset.fold_max_lt]
      exact ⟨by rw [ninf_eq]; exact bot_lt_top, fun c _ => EReal.coe_lt_top _⟩
    exact h.ne
  exact ⟨_, (EReal.coe_toReal htop hbot).symm⟩

/-- On a row of reals the two log-softmax formulas agree (whatever `Ideal.exp` and `Ideal.log`
    return: both sides apply them to the same arguments). -/
theorem lsmK_eq_lsmR (P : Fin 128 → ℝ) (c : Fin 128) :
    lsmK (fun c => (P c : EReal)) c = lsmR (fun c => (P c : EReal)) c := by
  obtain ⟨μ, hμ⟩ := rowMax_coe P
  simp only [lsmK, lsmR, hμ, ninf_eq, zero_eq, bot_le, max_eq_right, zero_add]
  exact coe_sub_add_coe (P c) μ _

/-! ### The pre-softmax values are coercions of real formulas -/

section Real

variable (X : SX.Idx → ℝ) (G : SG.Idx → ℝ) (W : SW.Idx → ℝ) (B : SB.Idx → ℝ)

/-- The first Chebyshev term over the reals. -/
def t1R (r : Fin 10000) (j : Fin 128) : ℝ := ∑ k : Fin 10000, G (ix2 r k) * X (ix2 k j)

/-- The kernel's pre-softmax value over the reals. -/
def preKR (r : Fin 10000) (c : Fin 128) : ℝ :=
  (((2 : ℝ) * (∑ k : Fin 10000, G (ix2 r k) * ∑ j : Fin 128, t1R X G k j * W (ix3 2 j c))
      + ∑ j : Fin 128, t1R X G r j * W (ix3 1 j c))
    + ∑ j : Fin 128, X (ix2 r j) * (W (ix3 0 j c) - W (ix3 2 j c))) + B (ix1 c)

/-- The reference's pre-softmax value over the reals. -/
def preRR (r : Fin 10000) (c : Fin 128) : ℝ :=
  ((∑ j : Fin 128, X (ix2 r j) * W (ix3 0 j c) + ∑ j : Fin 128, t1R X G r j * W (ix3 1 j c))
    + ∑ j : Fin 128, ((2 : ℝ) * (∑ k : Fin 10000, G (ix2 r k) * t1R X G k j) - X (ix2 r j))
        * W (ix3 2 j c)) + B (ix1 c)

/-- Over the reals the two pre-softmax values are equal: the regrouping identity at the row `r` of
    the graph operator and the column `c` of the weights. -/
theorem preKR_eq_preRR (r : Fin 10000) (c : Fin 128) : preKR X G W B r c = preRR X G W B r c :=
  real_regroup 2 (fun k => G (ix2 r k)) (t1R X G) (t1R X G r) (fun j => X (ix2 r j))
    (fun j => W (ix3 0 j c)) (fun j => W (ix3 1 j c)) (fun j => W (ix3 2 j c)) (B (ix1 c))

/-- The first Chebyshev term of coerced real arrays is the coercion of the real one. -/
theorem t1_coe (r : Fin 10000) (j : Fin 128) :
    t1 (fun i => (X i : EReal)) (fun i => (G i : EReal)) r j = ((t1R X G r j : ℝ) : EReal) := by
  simp only [t1, t1R, coe_sum, EReal.coe_mul]

/-- The kernel's pre-softmax value of coerced real arrays is the coercion of the real formula:
    every product, sum and difference in it is one of reals. -/
theorem preK_coe (r : Fin 10000) (c : Fin 128) :
    preK (fun i => (X i : EReal)) (fun i => (G i : EReal)) (fun i => (W i : EReal))
        (fun i => (B i : EReal)) r c = ((preKR X G W B r c : ℝ) : EReal) := by
  simp only [preK, tw2, tw1, t1_coe, preKR, two_eq, coe_sum, EReal.coe_mul, EReal.coe_add,
    EReal.coe_sub]

/-- The same for the reference's pre-softmax value. -/
theorem preR_coe (r : Fin 10000) (c : Fin 128) :
    preR (fun i => (X i : EReal)) (fun i => (G i : EReal)) (fun i => (W i : EReal))
        (fun i => (B i : EReal)) r c = ((preRR X G W B r c : ℝ) : EReal) := by
  simp only [preR, t1_coe, preRR, two_eq, coe_sum, EReal.coe_mul, EReal.coe_add, EReal.coe_sub]

end Real

/-! ### The two results agree on real arrays -/

/-- wherever the four arrays hold real numbers, the kernel's result is the reference's -/
theorem outK_eq_outR (x : SX.Idx → EReal) (g : SG.Idx → EReal) (w : SW.Idx → EReal) (b : SB.Idx → EReal)
    (hx : ∀ i, ∃ t : ℝ, x i = (t : EReal)) (hg : ∀ i, ∃ t : ℝ, g i = (t : EReal))
    (hw : ∀ i, ∃ t : ℝ, w i = (t : EReal)) (hb : ∀ i, ∃ t : ℝ, b i = (t : EReal))
    (r : Fin 10000) (c : Fin 128) : outK x g w b r c = outR x g w b r c := by
  obtain ⟨X, rfl⟩ : ∃ X : SX.Idx → ℝ, x = fun i => (X i : EReal) :=
    ⟨fun i => (hx i).choose, funext fun i => (hx i).choose_spec⟩
  obtain ⟨G, rfl⟩ : ∃ G : SG.Idx → ℝ, g = fun i => (G i : EReal) :=
    ⟨fun i => (hg i).choose, funext fun i => (hg i).choose_spec⟩
  obtain ⟨W, rfl⟩ : ∃ W : SW.Idx → ℝ, w = fun i => (W i : EReal) :=
    ⟨fun i => (hw i).choose, funext fun i => (hw i).choose_spec⟩
  obtain ⟨B, rfl⟩ : ∃ B : SB.Idx → ℝ, b = fun i => (B i : EReal) :=
    ⟨fun i => (hb i).choose, funext fun i => (hb i).choose_spec⟩
  have hK : preK (fun i => (X i : EReal)) (fun i => (G i : EReal)) (fun i => (W i : EReal))
      (fun i => (B i : EReal)) r = fun c => ((preKR X G W B r c : ℝ) : EReal) :=
    funext fun c => preK_coe X G W B r c
  have hR : preR (fun i => (X i : EReal)) (fun i => (G i : EReal)) (fun i => (W i : EReal))
      (fun i => (B i : EReal)) r = fun c => ((preKR X G W B r c : ℝ) : EReal) :=
    funext fun c => by rw [preR_coe, preKR_eq_preRR]
  unfold outK outR
  rw [hK, hR]
  exact lsmK_eq_lsmR _ c

end Cert.Cheb

end
-- ==== Proof.Finite.lean ====
/-
  From the precondition "every float input is finite" to "every entry of the four arrays is a real
  number".

  The precondition is, for each of the four arrays `a`, the conjunction over ALL indices of
  `|a i| < +∞` (a reduction by `and` from the constant 1 over all axes), and the four results
  joined by `and`.  A conjunction that is 1 has every conjunct 1; a reduction by `and` into a
  single result that is 1 met a 1 at every index; and an extended real `a` with
  `max a (-a) < ⊤` is neither `⊥` nor `⊤`, hence a real.  The reduction over the whole array is
  never evaluated: only the general fact about reductions by `and` touches it.
-/
import proofs.«162648_g1778116460694_cont_7to1_379_3_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

/-- The pattern `0x7F800000` denotes plus infinity. -/
theorem pinf_eq : Ideal.ofBits .f32 0x7F800000#32 = (⊤ : EReal) := by
  simp [Ideal.ofBits, Ideal.ieee]

/-- A one-bit word made from a truth value is 1 exactly when the value is true. -/
theorem ofBool_eq_one (p : Bool) : BitVec.ofBool p = 1#1 ↔ p = true := by
  cases p <;> decide

/-- The element fact: an extended real whose absolute value `max a (-a)` compares strictly below
    plus infinity is a real number (`⊥` and `⊤` both have absolute value `⊤`). -/
theorem real_of_abs_lt_pinf (a : EReal)
    (h : Ideal.cmp .olt (max a (-a)) (Ideal.ofBits .f32 0x7F800000#32) = 1#1) :
    ∃ t : ℝ, a = (t : EReal) := by
  have hlt : max a (-a) < ⊤ := by
    rw [pinf_eq] at h
    simpa [Ideal.cmp, ofBool_eq_one] using h
  induction a using EReal.rec with
  | bot => simp at hlt
  | coe t => exact ⟨t, rfl⟩
  | top => simp at hlt

/-- One array: if the conjunction over all indices of `|a i| < +∞` is 1, every entry of `a` is a
    real number.  Generic in the shape, the reduced axes and the two shape facts. -/
theorem reals_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim S ![] hb (constant (F := Ideal) Cert.Pre_finite_inputs.S_ .f32 0x7F800000#32)))
          (constantI Cert.Pre_finite_inputs.S_ 1 1#1) hr hu j = 1#1) :
    ∀ i, ∃ t : ℝ, a i = (t : EReal) := by
  intro i
  -- the scalar shape has a single index
  haveI : Subsingleton Cert.Pre_finite_inputs.S_.Idx := ⟨fun a b => funext fun d => d.elim0⟩
  have hi := Host.reduce_andi_all _ _ hr hu j e i
  exact real_of_abs_lt_pinf (a i) hi

/-- under the precondition every entry of the four arrays is a real number -/
theorem reals_of_pre [hP : Cert.Pre_finite_inputs.Facts]
    (x : FVec Ideal Cert.Pre_finite_inputs.S10000x128 .f32) (g : FVec Ideal Cert.Pre_finite_inputs.S10000x10000 .f32)
    (w : FVec Ideal Cert.Pre_finite_inputs.S3x128x128 .f32) (b : FVec Ideal Cert.Pre_finite_inputs.S128 .f32)
    (h : Cert.Pre_finite_inputs.fn (F := Ideal) x g w b = fun _ => 1#1) :
    (∀ i, ∃ t : ℝ, x i = (t : EReal)) ∧ (∀ i, ∃ t : ℝ, g i = (t : EReal))
    ∧ (∀ i, ∃ t : ℝ, w i = (t : EReal)) ∧ (∀ i, ∃ t : ℝ, b i = (t : EReal)) := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨hx, hg⟩, hw⟩, hb⟩ := h0
  exact ⟨reals_of_all x _ _ _ _ hx, reals_of_all g _ _ _ _ hg, reals_of_all w _ _ _ _ hw,
    reals_of_all b _ _ _ _ hb⟩

end Cert.Finite

end
-- ==== Proof.lean ====
/-
  The certificate: the Pallas kernel (one Chebyshev graph convolution of order three with a fused row-wise
  log-softmax, computed in two passes over the graph operator) against its jnp reference.

  The frames of the two kernel programs are the generated ones; the reference's frame is its run with the
  result dropped. The idealization rewrote nothing, so `preserves` is trivial. For `algebraic`: at the ideal
  instance the kernel's result array is `outK` of the four argument arrays (KRun, KBlocks, KValue) and the
  reference's is `outR` of them (RefValue); the precondition makes every entry of the arguments a real number
  (Finite), and on real entries `outK = outR` (ChebAlgebra): associativity and distributivity of the matrix
  products regroup `x·w₀ + T₁·w₁ + (2·g·T₁ − x)·w₂` into `2·g·(T₁·w₂) + T₁·w₁ + x·(w₀ − w₂)`, and
  `h − (log Σ exp (h − M) + M) = (h − M) − log Σ exp (h − M)` for a real row maximum `M`.
-/
import proofs.«162648_g1778116460694_cont_7to1_379_3_alg».proof.Defs
import proofs.«162648_g1778116460694_cont_7to1_379_3_alg».proof.Proof.Gen.Kernel
import proofs.«162648_g1778116460694_cont_7to1_379_3_alg».proof.Proof.Gen.Kernel.Frame
import proofs.«162648_g1778116460694_cont_7to1_379_3_alg».proof.Proof.Gen.KernelIdeal
import proofs.«162648_g1778116460694_cont_7to1_379_3_alg».proof.Proof.Gen.KernelIdeal.Frame
import proofs.«162648_g1778116460694_cont_7to1_379_3_alg».proof.Proof.Gen.ReferenceIdeal
import proofs.«162648_g1778116460694_cont_7to1_379_3_alg».proof.Proof.Gen.Pre_finite_inputs
import proofs.«162648_g1778116460694_cont_7to1_379_3_alg».proof.Proof.KRun
import proofs.«162648_g1778116460694_cont_7to1_379_3_alg».proof.Proof.KValue
import proofs.«162648_g1778116460694_cont_7to1_379_3_alg».proof.Proof.RefValue
import proofs.«162648_g1778116460694_cont_7to1_379_3_alg».proof.Proof.ChebAlgebra
import proofs.«162648_g1778116460694_cont_7to1_379_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both programs end with the result array at `outK` of the kernel's
    arguments: the kernel by its run, the reference at `outR` of the same arrays, equal to `outK` because the
    precondition makes every entry real. -/
theorem algebraic : Cert.algebraic_KernelIdeal_ReferenceIdeal := by
  intro m ρ m' ρ' hpre hagree
  refine ⟨fun c => (fun i : Cert.KernelIdeal.S10000x128.Idx =>
      Cert.Cheb.outK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (i 0) (i 1)), ?_, ?_⟩
  · exact (θ_run Cert.KernelIdeal.defs _ _).mono
      (fun r h c => ⟨(h c).1.trans (Cert.KernelIdeal.KValue.result m ρ c), (h c).2⟩)
      (Cert.KernelIdeal.RunValue.run_named m ρ)
  · refine (θ_run Cert.ReferenceIdeal.defs _ _).mono (fun r h c => ⟨(h c).1.trans ?_, (h c).2⟩)
      (Cert.ReferenceIdeal.RefValue.run m' ρ')
    obtain ⟨hx, hg, hw, hb⟩ := Cert.Finite.reals_of_pre _ _ _ _ (hpre c)
    rw [(hagree c).1, (hagree c).2.1, (hagree c).2.2.1, (hagree c).2.2.2]
    funext i
    exact (Cert.Cheb.outK_eq_outR _ _ _ _ hx hg hw hb (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
